-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S512x4096 : Shape := ⟨2, ![512, 4096]⟩
abbrev S512x64 : Shape := ⟨2, ![512, 64]⟩

abbrev nBuf : Space → Nat
  | .hbm => 3
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .local _ .vmem, ⟨0, _⟩ => ⟨S4096x64, .f32⟩
  | .local _ .vmem, ⟨1, _⟩ => ⟨S512x4096, .f32⟩
  | .local _ .vmem, ⟨2, _⟩ => ⟨S512x4096, .f32⟩
  | .local _ .vmem, ⟨3, _⟩ => ⟨S4096x64, .f32⟩
  | .local _ .vmem, ⟨4, _⟩ => ⟨S4096x4096, .bf16⟩
  | .local _ .vmem, ⟨5, _⟩ => ⟨S4096x64, .f32⟩
  | .local _ .vmem, ⟨6, _⟩ => ⟨S4096x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let v6 : Index := Scalar.indexCast v0
  let c0_2 : Index := 0#32
  ![v6.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v16 : Index := Scalar.indexCast v0
  let c0_7 : Index := 0#32
  ![v16.toNat, 0]
def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  h_S512x64 : 0 < S512x64.numel
  shapeCasts_S512x64_S512x64 : S512x64.ShapeCasts S512x64
  inb_S4096x4096_S512x4096_0_0 : ∀ a, (![0, 0] : Fin 2 → Nat) a + S512x4096.size a ≤ S4096x4096.size a
  inb_S4096x64_S512x64_0_0 : ∀ a, (![0, 0] : Fin 2 → Nat) a + S512x64.size a ≤ S4096x64.size a
  inb_S4096x4096_S512x4096_512_0 : ∀ a, (![512, 0] : Fin 2 → Nat) a + S512x4096.size a ≤ S4096x4096.size a
  inb_S4096x64_S512x64_512_0 : ∀ a, (![512, 0] : Fin 2 → Nat) a + S512x64.size a ≤ S4096x64.size a
  inb_S4096x4096_S512x4096_1024_0 : ∀ a, (![1024, 0] : Fin 2 → Nat) a + S512x4096.size a ≤ S4096x4096.size a
  inb_S4096x64_S512x64_1024_0 : ∀ a, (![1024, 0] : Fin 2 → Nat) a + S512x64.size a ≤ S4096x64.size a
  inb_S4096x4096_S512x4096_1536_0 : ∀ a, (![1536, 0] : Fin 2 → Nat) a + S512x4096.size a ≤ S4096x4096.size a
  inb_S4096x64_S512x64_1536_0 : ∀ a, (![1536, 0] : Fin 2 → Nat) a + S512x64.size a ≤ S4096x64.size a
  inb_S4096x4096_S512x4096_2048_0 : ∀ a, (![2048, 0] : Fin 2 → Nat) a + S512x4096.size a ≤ S4096x4096.size a
  inb_S4096x64_S512x64_2048_0 : ∀ a, (![2048, 0] : Fin 2 → Nat) a + S512x64.size a ≤ S4096x64.size a
  inb_S4096x4096_S512x4096_2560_0 : ∀ a, (![2560, 0] : Fin 2 → Nat) a + S512x4096.size a ≤ S4096x4096.size a
  inb_S4096x64_S512x64_2560_0 : ∀ a, (![2560, 0] : Fin 2 → Nat) a + S512x64.size a ≤ S4096x64.size a
  inb_S4096x4096_S512x4096_3072_0 : ∀ a, (![3072, 0] : Fin 2 → Nat) a + S512x4096.size a ≤ S4096x4096.size a
  inb_S4096x64_S512x64_3072_0 : ∀ a, (![3072, 0] : Fin 2 → Nat) a + S512x64.size a ≤ S4096x64.size a
  inb_S4096x4096_S512x4096_3584_0 : ∀ a, (![3584, 0] : Fin 2 → Nat) a + S512x4096.size a ≤ S4096x4096.size a
  inb_S4096x64_S512x64_3584_0 : ∀ a, (![3584, 0] : Fin 2 → Nat) a + S512x64.size a ≤ S4096x64.size a
  dot_S512x4096_S4096x64_S512x64_1_0_0_1_n_n_wf : DotDims.WF S512x4096 S4096x64 S512x64 [1] [0] [0] [1] [] []
  hrank0 : 0 < grid0.rank
  k0_off1_inb : ∀ i : grid0.Coords, ∀ a, (k0_off1 i) a + S512x4096.size a ≤ S4096x4096.size a
  k0_off1_packedbf16 : ∀ i : grid0.Coords, (Rect.unit (s := S4096x4096) (k0_off1 i) S512x4096.size (k0_off1_inb i)).PackedRows (EltTy.packing .bf16)
  k0_off2_inb : ∀ i : grid0.Coords, ∀ a, (k0_off2 i) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S_, .f32⟩
  | .hbm, ⟨44, _⟩ => ⟨S4096x64, .f32⟩
  | .hbm, ⟨45, _⟩ => ⟨S4096x64, .f32⟩
  | .hbm, ⟨46, _⟩ => ⟨S_, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .f32⟩
  | .hbm, ⟨51, _⟩ => ⟨S_, .f32⟩
  | .hbm, ⟨52, _⟩ => ⟨S4096x64, .f32⟩
  | .hbm, ⟨53, _⟩ => ⟨S4096x64, .f32⟩
  | .hbm, ⟨54, _⟩ => ⟨S_, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S_, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S_, .f32⟩
  | .hbm, ⟨68, _⟩ => ⟨S4096x64, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_15 : Ref sig .tc := ⟨.hbm, 67, rfl⟩
abbrev main_v49 : Ref sig .tc := ⟨.hbm, 68, rfl⟩
abbrev main_v50 : Ref sig .tc := ⟨.hbm, 69, rfl⟩
abbrev main_cst_16 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_cst_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.SpecK.lean ====
/-
  The propagation kernel's result as ONE function of its two argument arrays, at any float instance.
  The kernel works on row blocks of 512: it narrows the adjacency matrix block by block, narrows the
  features whole, and a propagation step stores, block by block, 0.9 times the product of the narrowed
  adjacency block with the narrowed features plus 0.1 times the block of the input features. Ten such
  steps from the input features give the result. The three arithmetic pieces are the body's own terms
  (narrowing the features, narrowing an adjacency block, one block of one step); here they are stacked
  into whole arrays.
-/
import proofs.«163700_g3178275799597_cont_8to1_b_565_9_alg».proof.Proof.Gen.Kernel.Skeleton
import Idealize.ShloMosaic.Lib.ValueIdx

noncomputable section

namespace Cert.Kernel.Gen

open Idealize.ShloMosaic Idealize.ShloMosaic.ValueIdx

variable {F : FTy → Type} [FloatOps F]

/-- Rows 512·u … 512·u + 511 of an array of 4096 rows. -/
def rowBlock {n : Nat} {α : Type} (X : (⟨2, ![4096, n]⟩ : Shape).Idx → α) (u : Fin 8) : (⟨2, ![512, n]⟩ : Shape).Idx → α :=
  fun j => X (ix2 (⟨512 * u.val + (j 0).val, by have := idx2_lt0 j; have := u.isLt; omega⟩ : Fin 4096) (j 1 : Fin n))

/-- Eight blocks of 512 rows stacked into an array of 4096 rows: row r is row r % 512 of block r / 512. -/
def stackRows {n : Nat} {α : Type} (q : Fin 8 → (⟨2, ![512, n]⟩ : Shape).Idx → α) : (⟨2, ![4096, n]⟩ : Shape).Idx → α :=
  fun y => q ⟨(y 0).val / 512, by have := idx2_lt0 y; omega⟩
    (ix2 (⟨(y 0).val % 512, Nat.mod_lt _ (by norm_num)⟩ : Fin 512) (y 1 : Fin n))

/-- Stacking an array's own row blocks gives the array back. -/
theorem stackRows_rowBlock {n : Nat} {α : Type} (X : (⟨2, ![4096, n]⟩ : Shape).Idx → α) :
    stackRows (fun u => rowBlock X u) = X := by
  funext y
  unfold stackRows rowBlock
  refine congrArg X ?_
  funext a; match a with
  | ⟨0, _⟩ => exact Fin.ext (by show 512 * ((y 0).val / 512) + (y 0).val % 512 = (y 0).val; omega)
  | ⟨1, _⟩ => rfl

/-- Block u of a stack is its u-th block. -/
theorem rowBlock_stackRows {n : Nat} {α : Type} (q : Fin 8 → (⟨2, ![512, n]⟩ : Shape).Idx → α) (u : Fin 8) :
    rowBlock (stackRows q) u = q u := by
  funext j
  unfold stackRows rowBlock
  have hj := idx2_lt0 j
  have h1 : (512 * u.val + (j 0).val) / 512 = u.val := by omega
  have h2 : (512 * u.val + (j 0).val) % 512 = (j 0).val := by omega
  have e1 : (⟨(512 * u.val + (j 0).val) / 512, by have := u.isLt; omega⟩ : Fin 8) = u := Fin.ext h1
  show q ⟨(512 * u.val + (j 0).val) / 512, _⟩ (ix2 ⟨(512 * u.val + (j 0).val) % 512, _⟩ (j 1)) = q u j
  rw [e1]
  refine congrArg (q u) ?_
  funext a; match a with
  | ⟨0, _⟩ => exact Fin.ext h2
  | ⟨1, _⟩ => rfl

/-- The features narrowed whole (the body's own term). -/
def narrowFeat (h : Vec F S4096x64 .f32) : Vec F S4096x64 .bf16 := k0_pay1 h
/-- One adjacency block narrowed (the body's own term). -/
def narrowAdj (a : Vec F S512x4096 .f32) : Vec F S512x4096 .bf16 := k0_pay2 a
/-- One block of one propagation step: 0.9 · (narrow adjacency block · narrow features) + 0.1 · (block of the input
    features) (the body's own term). -/
def tileStep (a : Vec F S512x4096 .bf16) (hb : Vec F S4096x64 .bf16) (xt : Vec F S512x64 .f32) : Vec F S512x64 .f32 :=
  k0_pay3 a hb xt

/-- The adjacency matrix narrowed block by block. -/
def adjNarrow (A : Vec F S4096x4096 .f32) : Vec F S4096x4096 .bf16 := stackRows fun u => narrowAdj (rowBlock A u)

/-- One propagation step over all eight blocks, from the narrow adjacency `ab`, the input features `x` and the
    current features `h`. -/
def propStep (ab : Vec F S4096x4096 .bf16) (x h : Vec F S4096x64 .f32) : Vec F S4096x64 .f32 :=
  stackRows fun u => tileStep (rowBlock ab u) (narrowFeat h) (rowBlock x u)

/-- The features after n propagation steps. -/
def feat (X : Vec F S4096x64 .f32) (A : Vec F S4096x4096 .f32) : ℕ → Vec F S4096x64 .f32
  | 0 => X
  | n + 1 => propStep (adjNarrow A) X (feat X A n)

end Cert.Kernel.Gen

end
-- ==== Proof.CasesK.lean ====
/-
  The three control cases of the propagation kernel's body and what they are stated over.
  The grid has eight points, one per 512-row block of the adjacency matrix. The body branches twice on the
  point's number: at point 0 it first copies the features into the narrow feature scratch; at point 7 it
  runs, after the streaming step every point runs, the nine remaining propagation steps. So a point is in
  one of three cases: the first (only the first branch taken), a middle one (neither), the last (only the
  second). The two conditions are decided over the grid in closed form here, together with where the
  result window is idle, the staging and scratch memrefs the body is called with, and the launch's region
  invariant with the three scratch buffers held as memrefs.
-/
import proofs.«163700_g3178275799597_cont_8to1_b_565_9_alg».proof.Proof.Gen.Kernel.Launch
import proofs.«163700_g3178275799597_cont_8to1_b_565_9_alg».proof.Proof.Gen.Kernel.Skeleton
import proofs.«163700_g3178275799597_cont_8to1_b_565_9_alg».proof.Proof.Gen.Kernel.Points
import proofs.«163700_g3178275799597_cont_8to1_b_565_9_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the point's number is zero), as the body computes it. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch's condition (the point's number is seven). -/
abbrev cond0_1 (i : grid0.Coords) : Prop := k0_cond2 i = 1#1
/-- It holds at point 7 only. -/
theorem hcond0_1 : ∀ t : Fin cfg0.N, cond0_1 (grid0.coords t) ↔ t.val = 7 :=
  (by decide +kernel : ∀ t : Fin grid0.N, cond0_1 (grid0.coords t) ↔ t.val = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from point 7 the result window is idle (the body stores nothing into it) and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At point 7 it is live. -/
theorem liveAt0_2 : ∀ t : Fin cfg0.N, cond0_1 (grid0.coords t) → cfg0.idle 2 (grid0.coords t) = false := by decide +kernel

/-- Each window's current staging memref at point `t`, as the pipeline passes it, and its wholeness. -/
abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
/-- The three scratch operands: the narrow adjacency copy, the wide features, the narrow features. -/
abbrev scM0_0 : Memref sig .tc .vmem S4096x4096 .bf16 := Memref.whole cc0_scratch0
abbrev scM0_1 : Memref sig .tc .vmem S4096x64 .f32 := Memref.whole cc0_scratch1
abbrev scM0_2 : Memref sig .tc .vmem S4096x64 .bf16 := Memref.whole cc0_scratch2

/-- The launch's region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.RunAK.lean ====
/-
  The body's run at the first point (the first branch taken): the features are narrowed into the narrow
  feature scratch, then the streaming step as at every point — the point's 512 adjacency rows narrowed into
  the adjacency scratch, multiplied with the narrow features, and the first propagation step's 512 rows
  stored into the wide feature scratch.
-/
import proofs.«163700_g3178275799597_cont_8to1_b_565_9_alg».proof.Proof.CasesK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the three scratch buffers (last first), with the proof that from
    whole memrefs — the two input blocks at `x0`, `x1`, the idle result buffer at anything, the scratch
    buffers at `xs4`, `xs5`, `xs6` — the body runs to its return leaving the inputs and the result buffer
    as they were and each scratch buffer with its stores over what it held. -/
noncomputable def runA (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (x0 : Vec F S4096x64 .f32) (x1 : Vec F S512x4096 .f32) (xs4 : Vec F S4096x4096 .bf16) (xs5 : Vec F S4096x64 .f32) (xs6 : Vec F S4096x64 .bf16) :
    Σ' (L4 : List (View.Piece (Elt F) S4096x4096 .bf16)) (L5 : List (View.Piece (Elt F) S4096x64 .f32)), { L6 : List (View.Piece (Elt F) S4096x64 .bf16) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare xi3
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi3
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, fun xi3 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexact H6

end Cert.Kernel.Gen

end
-- ==== Proof.RunBK.lean ====
/-
  The body's run at a middle point (neither branch taken): the point's 512 adjacency rows are narrowed into
  the adjacency scratch, multiplied with the narrow features, and the first propagation step's 512 rows
  stored into the wide feature scratch. What the two scratch buffers end with is the list of the run's
  stores over what they held, found by the run.
-/
import proofs.«163700_g3178275799597_cont_8to1_b_565_9_alg».proof.Proof.CasesK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the adjacency scratch and in the wide feature scratch (last first),
    with the proof that from whole memrefs — the two input blocks at `x0`, `x1`, the idle result buffer at
    anything, the three scratch buffers at `xs4`, `xs5`, `xs6` — the body runs to its return leaving the inputs,
    the result buffer and the narrow features as they were and the two written scratch buffers with these
    stores over what they held. -/
noncomputable def runB (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (x0 : Vec F S4096x64 .f32) (x1 : Vec F S512x4096 .f32) (xs4 : Vec F S4096x4096 .bf16) (xs5 : Vec F S4096x64 .f32) (xs6 : Vec F S4096x64 .bf16) :
    Σ' (L4 : List (View.Piece (Elt F) S4096x4096 .bf16)), { L5 : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare xi3
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi3
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ owns (c : Thread nD τ) arg6 fullShare xs6) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, fun xi3 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexists _; isplitr; · ipureintro; exact harg6.read_unread _
    iexact H6

end Cert.Kernel.Gen

end
-- ==== Proof.RunCK.lean ====
/-
  The body's run at the last point (the second branch taken): the streaming step as at every point, then
  the nine remaining propagation steps. Each step narrows the wide feature scratch whole into the narrow
  one, then, tile by tile of 512 rows, multiplies the adjacency scratch's tile with the narrow features and
  stores the step's rows — into the wide feature scratch for the first eight steps, into the result's
  buffer for the ninth.
-/
import proofs.«163700_g3178275799597_cont_8to1_b_565_9_alg».proof.Proof.CasesK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the last point leaves in the result's buffer and the three scratch buffers (last first),
    with the proof that from whole memrefs — the two input blocks at `x0`, `x1`, the result buffer at
    anything, the scratch buffers at `xs4`, `xs5`, `xs6` — the body runs to its return leaving the inputs
    as they were, the result buffer with its stores over something, and each scratch buffer with its
    stores over what it held. -/
noncomputable def runC (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i)
    (x0 : Vec F S4096x64 .f32) (x1 : Vec F S512x4096 .f32) (xs4 : Vec F S4096x4096 .bf16) (xs5 : Vec F S4096x64 .f32) (xs6 : Vec F S4096x64 .bf16) :
    Σ' (L3 : List (View.Piece (Elt F) S4096x64 .f32)) (L4 : List (View.Piece (Elt F) S4096x4096 .bf16)) (L5 : List (View.Piece (Elt F) S4096x64 .f32)), { L6 : List (View.Piece (Elt F) S4096x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, ?_, fun E K => ?run⟩
  case run =>
    simp only [cc0__appnp_body_eq_skeleton]; unfold cc0__appnp_body_skel
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg1.eq_unread hf1; obtain rfl := harg2.eq_unread hf2
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexact H4
    isplitl [H5]; · iexact H5
    iexact H6

end Cert.Kernel.Gen

end
-- ==== Proof.LibRowBlocks.lean ====
/-
  Reading an array of row blocks that was written block by block.

  An array of m rows and n columns is written through unit-stride rectangles of k whole rows each
  (a piece at row o covers rows o … o+k-1 and every column). Reading the written contents at an index
  (r, j): under the newest piece it is that piece's payload at (r - o, j); off it, it is what the older
  writes left. Eight pieces of 512 rows at rows 3584, 3072, …, 0 (newest first) over a 4096-row array
  read, whatever was there before, as the eight payloads stacked.
-/
import Idealize.ShloMosaic.Lib.Writes
import Idealize.ShloMosaic.Lib.ValueIdx
import Idealize.ShloMosaic.Lib.Pipeline.Value

noncomputable section

namespace RowBlocks

open Idealize.ShloMosaic Idealize.ShloMosaic.ValueIdx

variable {sig : RefSig} {κ : Kind} {sp : Space} {e : EltTy} {Val : EltTy → Type} {m n : Nat}

/-- Under the newest piece (k rows at row o) the written array reads the piece's payload at the local row. -/
theorem read_cons_rows_mem {k : Nat} (v : View sig κ sp (⟨2, ![m, n]⟩ : Shape) e) (f : v.ty.Contents Val)
    {off : Fin 2 → Nat} (o : Nat) (hoff : off = ![o, 0])
    (inb : ∀ a, off a + (⟨2, ![k, n]⟩ : Shape).size a ≤ (⟨2, ![m, n]⟩ : Shape).size a)
    (w : (Rect.unit (s := (⟨2, ![m, n]⟩ : Shape)) off (⟨2, ![k, n]⟩ : Shape).size inb).shape.Idx → Val e)
    (L : List (View.Piece Val (⟨2, ![m, n]⟩ : Shape) e)) (y : (⟨2, ![m, n]⟩ : Shape).Idx)
    (hlo : o ≤ (y 0).val) (hhi : (y 0).val < o + k) :
    v.read Val (v.writes Val f (⟨Rect.unit off (⟨2, ![k, n]⟩ : Shape).size inb, w⟩ :: L)) y
      = w (ix2 (⟨(y 0).val - o, by omega⟩ : Fin k) (y 1 : Fin n)) := by
  subst hoff
  have he : (Rect.unit (s := (⟨2, ![m, n]⟩ : Shape)) ![o, 0] (⟨2, ![k, n]⟩ : Shape).size inb).emb
      (ix2 (⟨(y 0).val - o, by omega⟩ : Fin k) (y 1 : Fin n)) = y := by
    funext a; apply Fin.ext
    match a with
    | ⟨0, _⟩ => show o + 1 * ((y 0).val - o) = (y 0).val; omega
    | ⟨1, _⟩ => show 0 + 1 * (y 1).val = (y 1).val; omega
  conv_lhs => rw [← he]
  exact View.read_writes_cons_emb v f _ w L _

/-- Off the newest piece the written array reads what the older writes left. -/
theorem read_cons_rows_not_mem {k : Nat} (v : View sig κ sp (⟨2, ![m, n]⟩ : Shape) e) (f : v.ty.Contents Val)
    {off : Fin 2 → Nat} (o : Nat) (hoff : off = ![o, 0])
    (inb : ∀ a, off a + (⟨2, ![k, n]⟩ : Shape).size a ≤ (⟨2, ![m, n]⟩ : Shape).size a)
    (w : (Rect.unit (s := (⟨2, ![m, n]⟩ : Shape)) off (⟨2, ![k, n]⟩ : Shape).size inb).shape.Idx → Val e)
    (L : List (View.Piece Val (⟨2, ![m, n]⟩ : Shape) e)) (y : (⟨2, ![m, n]⟩ : Shape).Idx)
    (h : (y 0).val < o ∨ o + k ≤ (y 0).val) :
    v.read Val (v.writes Val f (⟨Rect.unit off (⟨2, ![k, n]⟩ : Shape).size inb, w⟩ :: L)) y
      = v.read Val (v.writes Val f L) y := by
  subst hoff
  have hy : y ∉ (Rect.unit (s := (⟨2, ![m, n]⟩ : Shape)) ![o, 0] (⟨2, ![k, n]⟩ : Shape).size inb).set := by
    rw [Rect.mem_set_unit]
    intro hm
    have h0 := hm 0
    have e1 : (![o, 0] : Fin 2 → Nat) 0 = o := rfl
    have e2 : (⟨2, ![k, n]⟩ : Shape).size 0 = k := rfl
    rw [e1, e2] at h0
    omega
  rw [View.writes_cons, View.read_slice_write_of_not_mem _ _ _ _ (by rw [Rect.map_emb_univ]; exact hy)]

/-- The written array under ONE piece over contents f: the payload on the piece's rows, f's reading elsewhere. -/
theorem read_single_rows {k : Nat} (v : View sig κ sp (⟨2, ![m, n]⟩ : Shape) e) (f : v.ty.Contents Val)
    {off : Fin 2 → Nat} (o : Nat) (hoff : off = ![o, 0])
    (inb : ∀ a, off a + (⟨2, ![k, n]⟩ : Shape).size a ≤ (⟨2, ![m, n]⟩ : Shape).size a)
    (w : (Rect.unit (s := (⟨2, ![m, n]⟩ : Shape)) off (⟨2, ![k, n]⟩ : Shape).size inb).shape.Idx → Val e)
    (y : (⟨2, ![m, n]⟩ : Shape).Idx) (h : (y 0).val < o ∨ o + k ≤ (y 0).val) :
    v.read Val (v.writes Val f [⟨Rect.unit off (⟨2, ![k, n]⟩ : Shape).size inb, w⟩]) y = v.read Val f y :=
  read_cons_rows_not_mem v f o hoff inb w [] y h

end RowBlocks

end
-- ==== Proof.StreamK.lean ====
/-
  The streaming step's two stores read back. At point t the body narrows the point's adjacency block into
  rows 512·t … of the adjacency scratch and stores block t of the first propagation step — the product of
  that narrowed block with the narrow features, scaled, plus the scaled block of the input features — into
  the same rows of the wide feature scratch. Read at an index, the rows below 512·t keep what they held and
  the rows of block t hold the specification's rows.
-/
import proofs.«163700_g3178275799597_cont_8to1_b_565_9_alg».proof.Proof.SpecK
import proofs.«163700_g3178275799597_cont_8to1_b_565_9_alg».proof.Proof.RunAK
import proofs.«163700_g3178275799597_cont_8to1_b_565_9_alg».proof.Proof.RunBK
import proofs.«163700_g3178275799597_cont_8to1_b_565_9_alg».proof.Proof.LibRowBlocks
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The one coordinate of a grid point is its number. -/
theorem coords_val : ∀ t : Fin cfg0.N, ((grid0.coords t) 0).val = t.val :=
  (by decide +kernel : ∀ t : Fin grid0.N, ((grid0.coords t) 0).val = t.val)

theorem zeros2 : (![0, 0] : Fin 2 → Nat) = fun _ => 0 := by funext a; fin_cases a <;> rfl

/-- A load of 512 whole rows at row 512·u reads the array's u-th row block. -/
theorem ld_rowBlock {n : Nat} {e : EltTy} (X : (⟨2, ![4096, n]⟩ : Shape).Idx → Elt F e) {off : Fin 2 → Nat} (u : Fin 8)
    (hoff : off = ![512 * u.val, 0])
    (inb : ∀ a, off a + (⟨2, ![512, n]⟩ : Shape).size a ≤ (⟨2, ![4096, n]⟩ : Shape).size a) :
    View.ld X (Rect.unit (s := (⟨2, ![4096, n]⟩ : Shape)) off (⟨2, ![512, n]⟩ : Shape).size inb) = rowBlock X u := by
  subst hoff
  funext j
  unfold rowBlock
  show X ((Rect.unit (s := (⟨2, ![4096, n]⟩ : Shape)) ![512 * u.val, 0] (⟨2, ![512, n]⟩ : Shape).size inb).idx j) = _
  refine congrArg X ?_
  funext a; apply Fin.ext
  match a with
  | ⟨0, _⟩ => show 512 * u.val + 1 * (j 0).val = 512 * u.val + (j 0).val; omega
  | ⟨1, _⟩ => show 0 + 1 * (j 1).val = (j 1).val; omega

/-- The specification's narrowed adjacency at an index of row block u. -/
theorem adjNarrow_apply (A : Vec F S4096x4096 .f32) (u : Fin 8) (y : S4096x4096.Idx) (o : Nat) (ho : o = 512 * u.val)
    (hlo : o ≤ (y 0).val) (hhi : (y 0).val < o + 512) :
    adjNarrow A y = narrowAdj (rowBlock A u) (ix2 (⟨(y 0).val - o, by omega⟩ : Fin 512) (y 1 : Fin 4096)) := by
  subst ho
  unfold adjNarrow stackRows
  have hu' : (⟨(y 0).val / 512, by have := idx2_lt0 y; omega⟩ : Fin 8) = u := Fin.ext (by show (y 0).val / 512 = u.val; omega)
  rw [hu']
  refine congrArg (narrowAdj (rowBlock A u)) ?_
  funext a; match a with
  | ⟨0, _⟩ => exact Fin.ext (by show (y 0).val % 512 = (y 0).val - 512 * u.val; omega)
  | ⟨1, _⟩ => rfl

/-- One propagation step at an index of row block u. -/
theorem propStep_apply (ab : Vec F S4096x4096 .bf16) (x h : Vec F S4096x64 .f32) (u : Fin 8) (y : S4096x64.Idx) (o : Nat)
    (ho : o = 512 * u.val) (hlo : o ≤ (y 0).val) (hhi : (y 0).val < o + 512) :
    propStep ab x h y = tileStep (rowBlock ab u) (narrowFeat h) (rowBlock x u) (ix2 (⟨(y 0).val - o, by omega⟩ : Fin 512) (y 1 : Fin 64)) := by
  subst ho
  unfold propStep stackRows
  have hu' : (⟨(y 0).val / 512, by have := idx2_lt0 y; omega⟩ : Fin 8) = u := Fin.ext (by show (y 0).val / 512 = u.val; omega)
  rw [hu']
  refine congrArg (tileStep (rowBlock ab u) (narrowFeat h) (rowBlock x u)) ?_
  funext a; match a with
  | ⟨0, _⟩ => exact Fin.ext (by show (y 0).val % 512 = (y 0).val - 512 * u.val; omega)
  | ⟨1, _⟩ => rfl

set_option maxHeartbeats 1000000 in
theorem streamB_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (h4 : ∀ y : S4096x4096.Idx, (y 0).val < 512 * t.val → xs4 y = adjNarrow A y)
    (y : S4096x4096.Idx) (hy : (y 0).val < 512 * (t.val + 1)) :
    arg4.view.read (Elt F) (arg4.view.writes (Elt F) (harg4.unread xs4) (runB c i arg1 harg1 arg2 harg2 arg3 harg3 arg4 harg4 arg5 harg5 arg6 harg6 hc0 hc1 X (rowBlock A u) xs4 xs5 xs6).1) y = adjNarrow A y := by
  subst hi
  have hk1 := k0_off1_eq (grid0.coords t)
  have hcv := coords_val t
  unfold runB; dsimp only; unfold runB.sl.H4_1
  by_cases hlt : (y 0).val < 512 * t.val
  · rw [RowBlocks.read_single_rows _ _ (512 * ((grid0.coords t) 0).val) hk1 _ _ y (by omega), harg4.read_unread]
    exact h4 y hlt
  · rw [RowBlocks.read_cons_rows_mem _ _ (512 * ((grid0.coords t) 0).val) hk1 _ _ [] y (by omega) (by omega)]
    rw [View.readAt_eq_ld, harg2.read_unread, View.ld_unit_zero zeros2]
    rw [adjNarrow_apply A u y (512 * ((grid0.coords t) 0).val) (by omega) (by omega) (by omega)]
    rfl

set_option maxHeartbeats 1000000 in
theorem streamB_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32)
    (h5 : ∀ y : S4096x64.Idx, (y 0).val < 512 * t.val → xs5 y = feat X A 1 y)
    (y : S4096x64.Idx) (hy : (y 0).val < 512 * (t.val + 1)) :
    arg5.view.read (Elt F) (arg5.view.writes (Elt F) (harg5.unread xs5) (runB c i arg1 harg1 arg2 harg2 arg3 harg3 arg4 harg4 arg5 harg5 arg6 harg6 hc0 hc1 X (rowBlock A u) xs4 xs5 (narrowFeat X)).2.1) y = feat X A 1 y := by
  subst hi
  have hk1 := k0_off1_eq (grid0.coords t)
  have hk2 := k0_off2_eq (grid0.coords t)
  have hcv := coords_val t
  unfold runB; dsimp only
  by_cases hlt : (y 0).val < 512 * t.val
  · rw [RowBlocks.read_single_rows _ _ (512 * ((grid0.coords t) 0).val) hk2 _ _ y (by omega), harg5.read_unread]
    exact h5 y hlt
  · rw [RowBlocks.read_cons_rows_mem _ _ (512 * ((grid0.coords t) 0).val) hk2 _ _ [] y (by omega) (by omega)]
    have hoff2 : k0_off2 (grid0.coords t) = ![512 * u.val, 0] := by rw [hk2, hcv, hu]
    unfold runB.sl.v11 runB.sl.H4_1
    rw [View.readCov_cons_toLoadRect]
    rw [View.readAt_eq_ld, harg2.read_unread, View.ld_unit_zero zeros2]
    rw [View.readAt_eq_ld, harg6.read_unread, View.ld_unit_zero zeros2]
    rw [View.readAt_eq_ld, harg1.read_unread, ld_rowBlock X u hoff2]
    show _ = propStep (adjNarrow A) X X y
    rw [propStep_apply (adjNarrow A) X X u y (512 * ((grid0.coords t) 0).val) (by omega) (by omega) (by omega)]
    have hab : rowBlock (adjNarrow A) u = narrowAdj (rowBlock A u) := by
      unfold adjNarrow; exact rowBlock_stackRows _ u
    rw [hab]
    rfl

set_option maxHeartbeats 1000000 in
theorem streamA_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (y : S4096x4096.Idx) (hy : (y 0).val < 512 * (t.val + 1)) :
    arg4.view.read (Elt F) (arg4.view.writes (Elt F) (harg4.unread xs4) (runA c i arg1 harg1 arg2 harg2 arg3 harg3 arg4 harg4 arg5 harg5 arg6 harg6 hc0 hc1 X (rowBlock A u) xs4 xs5 xs6).1) y = adjNarrow A y := by
  subst hi
  have ht0 : t.val = 0 := (hcond0_0 t).mp hc0
  have hk1 := k0_off1_eq (grid0.coords t)
  have hcv := coords_val t
  unfold runA; dsimp only; unfold runA.sl.H4_1
  rw [RowBlocks.read_cons_rows_mem _ _ (512 * ((grid0.coords t) 0).val) hk1 _ _ [] y (by omega) (by omega)]
  rw [View.readAt_eq_ld, harg2.read_unread, View.ld_unit_zero zeros2]
  rw [adjNarrow_apply A u y (512 * ((grid0.coords t) 0).val) (by omega) (by omega) (by omega)]
  rfl

set_option maxHeartbeats 1000000 in
theorem streamA_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (y : S4096x64.Idx) (hy : (y 0).val < 512 * (t.val + 1)) :
    arg5.view.read (Elt F) (arg5.view.writes (Elt F) (harg5.unread xs5) (runA c i arg1 harg1 arg2 harg2 arg3 harg3 arg4 harg4 arg5 harg5 arg6 harg6 hc0 hc1 X (rowBlock A u) xs4 xs5 xs6).2.1) y = feat X A 1 y := by
  subst hi
  have ht0 : t.val = 0 := (hcond0_0 t).mp hc0
  have hk1 := k0_off1_eq (grid0.coords t)
  have hk2 := k0_off2_eq (grid0.coords t)
  have hcv := coords_val t
  unfold runA; dsimp only
  rw [RowBlocks.read_cons_rows_mem _ _ (512 * ((grid0.coords t) 0).val) hk2 _ _ [] y (by omega) (by omega)]
  have hoff2 : k0_off2 (grid0.coords t) = ![512 * u.val, 0] := by rw [hk2, hcv, hu]
  unfold runA.sl.v11 runA.sl.H4_1 runA.sl.v12 runA.sl.H6_1
  rw [View.readCov_cons_toLoadRect, View.readCov_cons_toLoadRect]
  rw [View.readAt_eq_ld, harg2.read_unread, View.ld_unit_zero zeros2]
  rw [View.readAt_eq_ld, harg1.read_unread, View.ld_unit_zero zeros2]
  rw [View.readAt_eq_ld, harg1.read_unread, ld_rowBlock X u hoff2]
  show _ = propStep (adjNarrow A) X X y
  rw [propStep_apply (adjNarrow A) X X u y (512 * ((grid0.coords t) 0).val) (by omega) (by omega) (by omega)]
  have hab : rowBlock (adjNarrow A) u = narrowAdj (rowBlock A u) := by
    unfold adjNarrow; exact rowBlock_stackRows _ u
  rw [hab]
  rfl

theorem streamA_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (X : Vec F S4096x64 .f32) (x1 : Vec F S512x4096 .f32) (xs4 : Vec F S4096x4096 .bf16) (xs5 : Vec F S4096x64 .f32) (xs6 : Vec F S4096x64 .bf16) :
    arg6.view.read (Elt F) (arg6.view.writes (Elt F) (harg6.unread xs6) (runA c i arg1 harg1 arg2 harg2 arg3 harg3 arg4 harg4 arg5 harg5 arg6 harg6 hc0 hc1 X x1 xs4 xs5 xs6).2.2.1) = narrowFeat X := by
  unfold runA; dsimp only; unfold runA.sl.H6_1
  rw [View.read_writes_eq_canon _ _ _ (fun y => ⟨_, List.mem_singleton_self _, View.mem_set_unit_zero zeros2 inb_S4096x64_S4096x64_0_0 y⟩),
    View.canon_unit_zero zeros2]
  rw [View.readAt_eq_ld, harg1.read_unread, View.ld_unit_zero zeros2]
  rfl

end Cert.Kernel.Gen

end
-- ==== Proof.TailK.lean ====
/-
  The last point's stores read back: the nine remaining propagation steps.
  After the streaming step the adjacency scratch holds the narrowed adjacency matrix on every row (rows
  below 3584 by hypothesis, the last block just written) and the wide feature scratch the first iterate.
  Each later step narrows the wide features whole, then writes, tile by tile of 512 rows (the newest store
  first in the list: rows 3584, 3072, …, 0), one block of the next iterate computed from the adjacency tile,
  the narrowed features and the input features' tile. Eight such tiles read back as the next iterate
  whatever the buffer held before; so the ninth step leaves the tenth iterate in the result's buffer.
-/
import proofs.«163700_g3178275799597_cont_8to1_b_565_9_alg».proof.Proof.StreamK
import proofs.«163700_g3178275799597_cont_8to1_b_565_9_alg».proof.Proof.RunCK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Eight stores of 512 whole rows at rows 3584, 3072, …, 0 (newest first), each holding its row block of ONE
    array G, read back as G, whatever the older stores and the prior contents. -/
theorem read_tiles8 {sig' : RefSig} {κ' : Kind} {sp' : Space} {n : Nat} {e : EltTy}
    (v : View sig' κ' sp' (⟨2, ![4096, n]⟩ : Shape) e) (f : v.ty.Contents (Elt F))
    (q0 q1 q2 q3 q4 q5 q6 q7 : (⟨2, ![512, n]⟩ : Shape).Idx → Elt F e)
    (inb0 : ∀ a, (![0, 0] : Fin 2 → Nat) a + (⟨2, ![512, n]⟩ : Shape).size a ≤ (⟨2, ![4096, n]⟩ : Shape).size a)
    (inb1 : ∀ a, (![512, 0] : Fin 2 → Nat) a + (⟨2, ![512, n]⟩ : Shape).size a ≤ (⟨2, ![4096, n]⟩ : Shape).size a)
    (inb2 : ∀ a, (![1024, 0] : Fin 2 → Nat) a + (⟨2, ![512, n]⟩ : Shape).size a ≤ (⟨2, ![4096, n]⟩ : Shape).size a)
    (inb3 : ∀ a, (![1536, 0] : Fin 2 → Nat) a + (⟨2, ![512, n]⟩ : Shape).size a ≤ (⟨2, ![4096, n]⟩ : Shape).size a)
    (inb4 : ∀ a, (![2048, 0] : Fin 2 → Nat) a + (⟨2, ![512, n]⟩ : Shape).size a ≤ (⟨2, ![4096, n]⟩ : Shape).size a)
    (inb5 : ∀ a, (![2560, 0] : Fin 2 → Nat) a + (⟨2, ![512, n]⟩ : Shape).size a ≤ (⟨2, ![4096, n]⟩ : Shape).size a)
    (inb6 : ∀ a, (![3072, 0] : Fin 2 → Nat) a + (⟨2, ![512, n]⟩ : Shape).size a ≤ (⟨2, ![4096, n]⟩ : Shape).size a)
    (inb7 : ∀ a, (![3584, 0] : Fin 2 → Nat) a + (⟨2, ![512, n]⟩ : Shape).size a ≤ (⟨2, ![4096, n]⟩ : Shape).size a)
    (L : List (View.Piece (Elt F) (⟨2, ![4096, n]⟩ : Shape) e)) (G : (⟨2, ![4096, n]⟩ : Shape).Idx → Elt F e)
    (h0 : q0 = rowBlock G 0) (h1 : q1 = rowBlock G 1) (h2 : q2 = rowBlock G 2) (h3 : q3 = rowBlock G 3)
    (h4 : q4 = rowBlock G 4) (h5 : q5 = rowBlock G 5) (h6 : q6 = rowBlock G 6) (h7 : q7 = rowBlock G 7) :
    v.read (Elt F) (v.writes (Elt F) f
      (⟨Rect.unit ![3584, 0] (⟨2, ![512, n]⟩ : Shape).size inb7, q7⟩ :: ⟨Rect.unit ![3072, 0] (⟨2, ![512, n]⟩ : Shape).size inb6, q6⟩
        :: ⟨Rect.unit ![2560, 0] (⟨2, ![512, n]⟩ : Shape).size inb5, q5⟩ :: ⟨Rect.unit ![2048, 0] (⟨2, ![512, n]⟩ : Shape).size inb4, q4⟩
        :: ⟨Rect.unit ![1536, 0] (⟨2, ![512, n]⟩ : Shape).size inb3, q3⟩ :: ⟨Rect.unit ![1024, 0] (⟨2, ![512, n]⟩ : Shape).size inb2, q2⟩
        :: ⟨Rect.unit ![512, 0] (⟨2, ![512, n]⟩ : Shape).size inb1, q1⟩ :: ⟨Rect.unit ![0, 0] (⟨2, ![512, n]⟩ : Shape).size inb0, q0⟩ :: L)) = G := by
  subst h0 h1 h2 h3 h4 h5 h6 h7
  funext y
  have hy := idx2_lt0 y
  have fin : ∀ (u : Fin 8) (o : Nat), o = 512 * u.val → o ≤ (y 0).val → (hh : (y 0).val < o + 512) →
      rowBlock G u (ix2 (⟨(y 0).val - o, by omega⟩ : Fin 512) (y 1 : Fin n)) = G y := by
    intro u o ho hlo hh
    subst ho
    unfold rowBlock
    refine congrArg G ?_
    funext a; match a with
    | ⟨0, _⟩ => exact Fin.ext (by show 512 * u.val + ((y 0).val - 512 * u.val) = (y 0).val; omega)
    | ⟨1, _⟩ => rfl
  by_cases c7 : 3584 ≤ (y 0).val
  · rw [RowBlocks.read_cons_rows_mem v f 3584 rfl _ _ _ y c7 (by omega)]
    exact fin 7 3584 rfl c7 (by omega)
  rw [RowBlocks.read_cons_rows_not_mem v f 3584 rfl _ _ _ y (by omega)]
  by_cases c6 : 3072 ≤ (y 0).val
  · rw [RowBlocks.read_cons_rows_mem v f 3072 rfl _ _ _ y c6 (by omega)]
    exact fin 6 3072 rfl c6 (by omega)
  rw [RowBlocks.read_cons_rows_not_mem v f 3072 rfl _ _ _ y (by omega)]
  by_cases c5 : 2560 ≤ (y 0).val
  · rw [RowBlocks.read_cons_rows_mem v f 2560 rfl _ _ _ y c5 (by omega)]
    exact fin 5 2560 rfl c5 (by omega)
  rw [RowBlocks.read_cons_rows_not_mem v f 2560 rfl _ _ _ y (by omega)]
  by_cases c4 : 2048 ≤ (y 0).val
  · rw [RowBlocks.read_cons_rows_mem v f 2048 rfl _ _ _ y c4 (by omega)]
    exact fin 4 2048 rfl c4 (by omega)
  rw [RowBlocks.read_cons_rows_not_mem v f 2048 rfl _ _ _ y (by omega)]
  by_cases c3 : 1536 ≤ (y 0).val
  · rw [RowBlocks.read_cons_rows_mem v f 1536 rfl _ _ _ y c3 (by omega)]
    exact fin 3 1536 rfl c3 (by omega)
  rw [RowBlocks.read_cons_rows_not_mem v f 1536 rfl _ _ _ y (by omega)]
  by_cases c2 : 1024 ≤ (y 0).val
  · rw [RowBlocks.read_cons_rows_mem v f 1024 rfl _ _ _ y c2 (by omega)]
    exact fin 2 1024 rfl c2 (by omega)
  rw [RowBlocks.read_cons_rows_not_mem v f 1024 rfl _ _ _ y (by omega)]
  by_cases c1 : 512 ≤ (y 0).val
  · rw [RowBlocks.read_cons_rows_mem v f 512 rfl _ _ _ y c1 (by omega)]
    exact fin 1 512 rfl c1 (by omega)
  rw [RowBlocks.read_cons_rows_not_mem v f 512 rfl _ _ _ y (by omega)]
  rw [RowBlocks.read_cons_rows_mem v f 0 rfl _ _ _ y (by omega) (by omega)]
  exact fin 0 0 rfl (by omega) (by omega)

/-- A whole-array load of what a list of stores left over junk reads the stores' reading. -/
theorem readCov_whole {sig' : RefSig} {κ' : Kind} {sp' : Space} {S : Shape} {e : EltTy} (v : View sig' κ' sp' S e)
    (L : List (View.Piece (Elt F) S e)) {off : Fin S.rank → Nat} (h : off = fun _ => 0) (inb : ∀ a, off a + S.size a ≤ S.size a) :
    v.readCov L (Rect.unit off S.size inb).toLoadRect = v.read (Elt F) (v.writes (Elt F) v.junk L) := by
  unfold View.readCov
  rw [View.readAt_eq_ld, View.ld_unit_zero h]

/-- Block u of one propagation step is the step's tile. -/
theorem rowBlock_propStep (ab : Vec F S4096x4096 .bf16) (x h : Vec F S4096x64 .f32) (u : Fin 8) :
    rowBlock (propStep ab x h) u = tileStep (rowBlock ab u) (narrowFeat h) (rowBlock x u) := by
  unfold propStep; exact rowBlock_stackRows _ u

/-- A tile of the adjacency scratch loaded at the last point: the narrowed adjacency matrix's block, on the rows below
    3584 by hypothesis and on the last block by the streaming step's store. -/
theorem abl (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) (o : Nat) (u : Fin 8) (ho : o = 512 * u.val)
    (inb : ∀ a, (![o, 0] : Fin 2 → Nat) a + S512x4096.size a ≤ S4096x4096.size a) :
    View.readAt (Elt F) arg4.view (Rect.unit (s := S4096x4096) ![o, 0] S512x4096.size inb).toLoadRect
      (arg4.view.writes (Elt F) (harg4.unread xs4) (runC.sl.H4_1 c i arg2 harg2 (rowBlock A 7))) = rowBlock (adjNarrow A) u := by
  subst hi; subst ho
  have ht7 : t.val = 7 := (hcond0_1 t).mp hc1
  have hk1 := k0_off1_eq (grid0.coords t)
  have hcv := coords_val t
  funext j
  have hj := idx2_lt0 j
  rw [View.readAt_eq_ld]
  show arg4.view.read (Elt F) _ ((Rect.unit (s := S4096x4096) ![512 * u.val, 0] S512x4096.size inb).idx j) = _
  unfold runC.sl.H4_1
  have hy0 : (((Rect.unit (s := S4096x4096) ![512 * u.val, 0] S512x4096.size inb).idx j) 0).val = 512 * u.val + 1 * (j 0).val := rfl
  have hyy : (Rect.unit (s := S4096x4096) ![512 * u.val, 0] S512x4096.size inb).idx j
      = ix2 (⟨512 * u.val + (j 0).val, by have := u.isLt; omega⟩ : Fin 4096) (j 1 : Fin 4096) := by
    funext a; apply Fin.ext
    match a with
    | ⟨0, _⟩ => show 512 * u.val + 1 * (j 0).val = 512 * u.val + (j 0).val; omega
    | ⟨1, _⟩ => show 0 + 1 * (j 1).val = (j 1).val; omega
  by_cases hu7 : u.val < 7
  · rw [RowBlocks.read_single_rows _ _ (512 * ((grid0.coords t) 0).val) hk1 _ _ _ (by rw [hy0]; omega), harg4.read_unread]
    rw [h4 _ (by rw [hy0]; omega), hyy]
    rfl
  · have hu : u.val = 7 := by have := u.isLt; omega
    have hu' : u = 7 := Fin.ext hu
    subst hu'
    rw [RowBlocks.read_cons_rows_mem _ _ (512 * ((grid0.coords t) 0).val) hk1 _ _ [] _ (by rw [hy0]; omega) (by rw [hy0]; omega)]
    rw [View.readAt_eq_ld, harg2.read_unread, View.ld_unit_zero zeros2]
    have hab : rowBlock (adjNarrow A) 7 = narrowAdj (rowBlock A 7) := by unfold adjNarrow; exact rowBlock_stackRows _ 7
    rw [hab]
    show narrowAdj (rowBlock A 7) _ = _
    refine congrArg (narrowAdj (rowBlock A 7)) ?_
    funext a; match a with
    | ⟨0, _⟩ => exact Fin.ext (by show 512 * (7 : Fin 8).val + 1 * (j 0).val - 512 * ((grid0.coords t) 0).val = (j 0).val; rw [hcv, ht7]; show 512 * 7 + 1 * (j 0).val - 512 * 7 = (j 0).val; omega)
    | ⟨1, _⟩ => exact Fin.ext (by show 0 + 1 * (j 1).val = (j 1).val; omega)

/-- A tile of the input features' staging buffer: the input features' block. -/
theorem xl (arg1 : Memref sig .tc .vmem S4096x64 .f32) (harg1 : arg1.IsWhole) (X : Vec F S4096x64 .f32) (o : Nat) (u : Fin 8)
    (ho : o = 512 * u.val) (inb : ∀ a, (![o, 0] : Fin 2 → Nat) a + S512x64.size a ≤ S4096x64.size a) :
    View.readAt (Elt F) arg1.view (Rect.unit (s := S4096x64) ![o, 0] S512x64.size inb).toLoadRect (harg1.unread X) = rowBlock X u := by
  rw [View.readAt_eq_ld, harg1.read_unread]
  exact ld_rowBlock X u (by rw [ho]) inb

set_option maxHeartbeats 1000000 in
/-- After the streaming step the wide feature scratch holds the first iterate. -/
theorem hf_1 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v28 c i arg1 harg1 arg2 harg2 arg4 arg5 harg5 arg6 harg6 X (rowBlock A 7) xs5 (narrowFeat X)) = feat X A 1 := by
  subst hi
  have ht7 : t.val = 7 := (hcond0_1 t).mp hc1
  have hk1 := k0_off1_eq (grid0.coords t)
  have hk2 := k0_off2_eq (grid0.coords t)
  have hcv := coords_val t
  unfold runC.sl.v28
  rw [View.readAt_eq_ld, View.ld_unit_zero zeros2]
  funext y
  have hy := idx2_lt0 y
  unfold runC.sl.H5_1
  by_cases hlt : (y 0).val < 3584
  · rw [RowBlocks.read_single_rows _ _ (512 * ((grid0.coords t) 0).val) hk2 _ _ y (by omega), harg5.read_unread]
    exact h5 y hlt
  · rw [RowBlocks.read_cons_rows_mem _ _ (512 * ((grid0.coords t) 0).val) hk2 _ _ [] y (by omega) (by omega)]
    have hoff2 : k0_off2 (grid0.coords t) = ![512 * (7 : Fin 8).val, 0] := by rw [hk2, hcv, ht7]; rfl
    unfold runC.sl.v11 runC.sl.H4_1
    rw [View.readCov_cons_toLoadRect]
    rw [View.readAt_eq_ld, harg2.read_unread, View.ld_unit_zero zeros2]
    rw [View.readAt_eq_ld, harg6.read_unread, View.ld_unit_zero zeros2]
    rw [View.readAt_eq_ld, harg1.read_unread, ld_rowBlock X 7 hoff2]
    show _ = propStep (adjNarrow A) X X y
    rw [propStep_apply (adjNarrow A) X X 7 y (512 * ((grid0.coords t) 0).val) (by rw [hcv, ht7]; rfl) (by omega) (by omega)]
    have hab : rowBlock (adjNarrow A) 7 = narrowAdj (rowBlock A 7) := by unfold adjNarrow; exact rowBlock_stackRows _ 7
    rw [hab]
    rfl

/-- The narrow features the propagation step number 2 reads: the 1-th iterate narrowed. -/
theorem hb_1 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v34 c i arg1 harg1 arg2 harg2 arg4 arg5 harg5 arg6 harg6 X (rowBlock A 7) xs5 (narrowFeat X)) = narrowFeat (feat X A 1) := by
  unfold runC.sl.v34 runC.sl.H6_1
  rw [View.readCov_cons_toLoadRect, hf_1 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 2. -/
theorem hf_2 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v129 c i arg1 harg1 arg2 harg2 arg4 harg4 arg5 harg5 arg6 harg6 X (rowBlock A 7) xs4 xs5 (narrowFeat X)) = feat X A 2 := by
  unfold runC.sl.v129
  rw [readCov_whole _ _ zeros2]
  unfold runC.sl.H5_9
  refine read_tiles8 _ _ _ _ _ _ _ _ _ _ _ _ _ _ _ _ _ _ _ (propStep (adjNarrow A) X (feat X A 1)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_1 c i arg1 harg1 arg2 harg2 arg3 harg3 arg4 harg4 arg5 harg5 arg6 harg6 hc0 hc1 t hi X A xs4 xs5 h4 h5]
    rfl

/-- The narrow features the propagation step number 3 reads: the 2-th iterate narrowed. -/
theorem hb_2 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v135 c i arg1 harg1 arg2 harg2 arg4 harg4 arg5 harg5 arg6 harg6 X (rowBlock A 7) xs4 xs5 (narrowFeat X)) = narrowFeat (feat X A 2) := by
  unfold runC.sl.v135 runC.sl.H6_2
  rw [View.readCov_cons_toLoadRect, hf_2 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 3. -/
theorem hf_3 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v230 c i arg1 harg1 arg2 harg2 arg4 harg4 arg5 harg5 arg6 harg6 X (rowBlock A 7) xs4 xs5 (narrowFeat X)) = feat X A 3 := by
  unfold runC.sl.v230
  rw [readCov_whole _ _ zeros2]
  unfold runC.sl.H5_17
  refine read_tiles8 _ _ _ _ _ _ _ _ _ _ _ _ _ _ _ _ _ _ _ (propStep (adjNarrow A) X (feat X A 2)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_2 c i arg1 harg1 arg2 harg2 arg3 harg3 arg4 harg4 arg5 harg5 arg6 harg6 hc0 hc1 t hi X A xs4 xs5 h4 h5]
    rfl

/-- The narrow features the propagation step number 4 reads: the 3-th iterate narrowed. -/
theorem hb_3 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v236 c i arg1 harg1 arg2 harg2 arg4 harg4 arg5 harg5 arg6 harg6 X (rowBlock A 7) xs4 xs5 (narrowFeat X)) = narrowFeat (feat X A 3) := by
  unfold runC.sl.v236 runC.sl.H6_3
  rw [View.readCov_cons_toLoadRect, hf_3 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 4. -/
theorem hf_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v331 c i arg1 harg1 arg2 harg2 arg4 harg4 arg5 harg5 arg6 harg6 X (rowBlock A 7) xs4 xs5 (narrowFeat X)) = feat X A 4 := by
  unfold runC.sl.v331
  rw [readCov_whole _ _ zeros2]
  unfold runC.sl.H5_25
  refine read_tiles8 _ _ _ _ _ _ _ _ _ _ _ _ _ _ _ _ _ _ _ (propStep (adjNarrow A) X (feat X A 3)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_3 c i arg1 harg1 arg2 harg2 arg3 harg3 arg4 harg4 arg5 harg5 arg6 harg6 hc0 hc1 t hi X A xs4 xs5 h4 h5]
    rfl

/-- The narrow features the propagation step number 5 reads: the 4-th iterate narrowed. -/
theorem hb_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v337 c i arg1 harg1 arg2 harg2 arg4 harg4 arg5 harg5 arg6 harg6 X (rowBlock A 7) xs4 xs5 (narrowFeat X)) = narrowFeat (feat X A 4) := by
  unfold runC.sl.v337 runC.sl.H6_4
  rw [View.readCov_cons_toLoadRect, hf_4 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 5. -/
theorem hf_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v432 c i arg1 harg1 arg2 harg2 arg4 harg4 arg5 harg5 arg6 harg6 X (rowBlock A 7) xs4 xs5 (narrowFeat X)) = feat X A 5 := by
  unfold runC.sl.v432
  rw [readCov_whole _ _ zeros2]
  unfold runC.sl.H5_33
  refine read_tiles8 _ _ _ _ _ _ _ _ _ _ _ _ _ _ _ _ _ _ _ (propStep (adjNarrow A) X (feat X A 4)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_4 c i arg1 harg1 arg2 harg2 arg3 harg3 arg4 harg4 arg5 harg5 arg6 harg6 hc0 hc1 t hi X A xs4 xs5 h4 h5]
    rfl

/-- The narrow features the propagation step number 6 reads: the 5-th iterate narrowed. -/
theorem hb_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v438 c i arg1 harg1 arg2 harg2 arg4 harg4 arg5 harg5 arg6 harg6 X (rowBlock A 7) xs4 xs5 (narrowFeat X)) = narrowFeat (feat X A 5) := by
  unfold runC.sl.v438 runC.sl.H6_5
  rw [View.readCov_cons_toLoadRect, hf_5 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 6. -/
theorem hf_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v533 c i arg1 harg1 arg2 harg2 arg4 harg4 arg5 harg5 arg6 harg6 X (rowBlock A 7) xs4 xs5 (narrowFeat X)) = feat X A 6 := by
  unfold runC.sl.v533
  rw [readCov_whole _ _ zeros2]
  unfold runC.sl.H5_41
  refine read_tiles8 _ _ _ _ _ _ _ _ _ _ _ _ _ _ _ _ _ _ _ (propStep (adjNarrow A) X (feat X A 5)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_5 c i arg1 harg1 arg2 harg2 arg3 harg3 arg4 harg4 arg5 harg5 arg6 harg6 hc0 hc1 t hi X A xs4 xs5 h4 h5]
    rfl

/-- The narrow features the propagation step number 7 reads: the 6-th iterate narrowed. -/
theorem hb_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v539 c i arg1 harg1 arg2 harg2 arg4 harg4 arg5 harg5 arg6 harg6 X (rowBlock A 7) xs4 xs5 (narrowFeat X)) = narrowFeat (feat X A 6) := by
  unfold runC.sl.v539 runC.sl.H6_6
  rw [View.readCov_cons_toLoadRect, hf_6 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 7. -/
theorem hf_7 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v634 c i arg1 harg1 arg2 harg2 arg4 harg4 arg5 harg5 arg6 harg6 X (rowBlock A 7) xs4 xs5 (narrowFeat X)) = feat X A 7 := by
  unfold runC.sl.v634
  rw [readCov_whole _ _ zeros2]
  unfold runC.sl.H5_49
  refine read_tiles8 _ _ _ _ _ _ _ _ _ _ _ _ _ _ _ _ _ _ _ (propStep (adjNarrow A) X (feat X A 6)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_6 c i arg1 harg1 arg2 harg2 arg3 harg3 arg4 harg4 arg5 harg5 arg6 harg6 hc0 hc1 t hi X A xs4 xs5 h4 h5]
    rfl

/-- The narrow features the propagation step number 8 reads: the 7-th iterate narrowed. -/
theorem hb_7 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v640 c i arg1 harg1 arg2 harg2 arg4 harg4 arg5 harg5 arg6 harg6 X (rowBlock A 7) xs4 xs5 (narrowFeat X)) = narrowFeat (feat X A 7) := by
  unfold runC.sl.v640 runC.sl.H6_7
  rw [View.readCov_cons_toLoadRect, hf_7 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 8. -/
theorem hf_8 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v735 c i arg1 harg1 arg2 harg2 arg4 harg4 arg5 harg5 arg6 harg6 X (rowBlock A 7) xs4 xs5 (narrowFeat X)) = feat X A 8 := by
  unfold runC.sl.v735
  rw [readCov_whole _ _ zeros2]
  unfold runC.sl.H5_57
  refine read_tiles8 _ _ _ _ _ _ _ _ _ _ _ _ _ _ _ _ _ _ _ (propStep (adjNarrow A) X (feat X A 7)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_7 c i arg1 harg1 arg2 harg2 arg3 harg3 arg4 harg4 arg5 harg5 arg6 harg6 hc0 hc1 t hi X A xs4 xs5 h4 h5]
    rfl

/-- The narrow features the propagation step number 9 reads: the 8-th iterate narrowed. -/
theorem hb_8 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v741 c i arg1 harg1 arg2 harg2 arg4 harg4 arg5 harg5 arg6 harg6 X (rowBlock A 7) xs4 xs5 (narrowFeat X)) = narrowFeat (feat X A 8) := by
  unfold runC.sl.v741 runC.sl.H6_8
  rw [View.readCov_cons_toLoadRect, hf_8 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 9. -/
theorem hf_9 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v836 c i arg1 harg1 arg2 harg2 arg4 harg4 arg5 harg5 arg6 harg6 X (rowBlock A 7) xs4 xs5 (narrowFeat X)) = feat X A 9 := by
  unfold runC.sl.v836
  rw [readCov_whole _ _ zeros2]
  unfold runC.sl.H5_65
  refine read_tiles8 _ _ _ _ _ _ _ _ _ _ _ _ _ _ _ _ _ _ _ (propStep (adjNarrow A) X (feat X A 8)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_8 c i arg1 harg1 arg2 harg2 arg3 harg3 arg4 harg4 arg5 harg5 arg6 harg6 hc0 hc1 t hi X A xs4 xs5 h4 h5]
    rfl

/-- The narrow features the last propagation step reads: the ninth iterate narrowed. -/
theorem hb_9 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v842 c i arg1 harg1 arg2 harg2 arg4 harg4 arg5 harg5 arg6 harg6 X (rowBlock A 7) xs4 xs5 (narrowFeat X)) = narrowFeat (feat X A 9) := by
  unfold runC.sl.v842 runC.sl.H6_9
  rw [View.readCov_cons_toLoadRect]
  simp only [runC.sl.r_27]
  rw [hf_9 c i arg1 harg1 arg2 harg2 arg3 harg3 arg4 harg4 arg5 harg5 arg6 harg6 hc0 hc1 t hi X A xs4 xs5 h4 h5]
  rfl

set_option maxHeartbeats 2000000 in
/-- The result's buffer after the last point: the tenth iterate, through any view over any prior contents. -/
theorem tail_out (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y)
    {sig' : RefSig} {κ' : Kind} {sp' : Space} (v : View sig' κ' sp' S4096x64 .f32) (f : v.ty.Contents (Elt F)) :
    v.read (Elt F) (v.writes (Elt F) f (runC c i arg1 harg1 arg2 harg2 arg3 harg3 arg4 harg4 arg5 harg5 arg6 harg6 hc0 hc1 X (rowBlock A 7) xs4 xs5 (narrowFeat X)).1) = feat X A 10 := by
  unfold runC; dsimp only
  refine read_tiles8 v f _ _ _ _ _ _ _ _ _ _ _ _ _ _ _ _ _ (propStep (adjNarrow A) X (feat X A 9)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_9 c i arg1 harg1 arg2 harg2 arg3 harg3 arg4 harg4 arg5 harg5 arg6 harg6 hc0 hc1 t hi X A xs4 xs5 h4 h5]
    simp only [tileStep, k0_pay3, shapeCast_self]
    rfl

end Cert.Kernel.Gen

end
-- ==== Proof.OpenK.lean ====
/-
  What the three runs' stores mean. At a point t < 7 the streaming step writes block t of the narrowed
  adjacency matrix and block t of the first propagation step, so that after it both scratch arrays agree
  with those two arrays on every row below 512·(t+1); at point 0 it also fills the narrow feature scratch.
  At point 7, from scratch arrays that agree on the rows below 3584, the streaming step completes them and
  the nine remaining steps, each reading what the step before stored block by block, leave the tenth
  iterate in the result's buffer — whatever the rows from 3584 on held before.
-/
import proofs.«163700_g3178275799597_cont_8to1_b_565_9_alg».proof.Proof.SpecK
import proofs.«163700_g3178275799597_cont_8to1_b_565_9_alg».proof.Proof.RunAK
import proofs.«163700_g3178275799597_cont_8to1_b_565_9_alg».proof.Proof.RunBK
import proofs.«163700_g3178275799597_cont_8to1_b_565_9_alg».proof.Proof.RunCK
import proofs.«163700_g3178275799597_cont_8to1_b_565_9_alg».proof.Proof.StreamK
import proofs.«163700_g3178275799597_cont_8to1_b_565_9_alg».proof.Proof.TailK
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The adjacency scratch agrees with the narrowed adjacency matrix on the rows below 512·n. -/
def agree4 (A : Vec F S4096x4096 .f32) (n : ℕ) (d : Vec F S4096x4096 .bf16) : Prop :=
  ∀ y : S4096x4096.Idx, (y 0).val < 512 * n → d y = adjNarrow A y
/-- The wide feature scratch agrees with the first propagation step on the rows below 512·n. -/
def agree5 (X : Vec F S4096x64 .f32) (A : Vec F S4096x4096 .f32) (n : ℕ) (d : Vec F S4096x64 .f32) : Prop :=
  ∀ y : S4096x64.Idx, (y 0).val < 512 * n → d y = feat X A 1 y

/-- The first point: block 0 of both arrays written, the narrow features filled. -/
theorem streamA_agree (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16) :
    agree4 A (t.val + 1) (arg4.view.read (Elt F) (arg4.view.writes (Elt F) (harg4.unread xs4) (runA c i arg1 harg1 arg2 harg2 arg3 harg3 arg4 harg4 arg5 harg5 arg6 harg6 hc0 hc1 X (rowBlock A u) xs4 xs5 xs6).1))
    ∧ agree5 X A (t.val + 1) (arg5.view.read (Elt F) (arg5.view.writes (Elt F) (harg5.unread xs5) (runA c i arg1 harg1 arg2 harg2 arg3 harg3 arg4 harg4 arg5 harg5 arg6 harg6 hc0 hc1 X (rowBlock A u) xs4 xs5 xs6).2.1))
    ∧ arg6.view.read (Elt F) (arg6.view.writes (Elt F) (harg6.unread xs6) (runA c i arg1 harg1 arg2 harg2 arg3 harg3 arg4 harg4 arg5 harg5 arg6 harg6 hc0 hc1 X (rowBlock A u) xs4 xs5 xs6).2.2.1) = narrowFeat X := by
  exact ⟨fun y hy => streamA_4 c i arg1 harg1 arg2 harg2 arg3 harg3 arg4 harg4 arg5 harg5 arg6 harg6 hc0 hc1 t hi u hu X A xs4 xs5 xs6 y hy,
    fun y hy => streamA_5 c i arg1 harg1 arg2 harg2 arg3 harg3 arg4 harg4 arg5 harg5 arg6 harg6 hc0 hc1 t hi u hu X A xs4 xs5 xs6 y hy,
    streamA_6 c i arg1 harg1 arg2 harg2 arg3 harg3 arg4 harg4 arg5 harg5 arg6 harg6 hc0 hc1 X (rowBlock A u) xs4 xs5 xs6⟩

/-- A middle point t: block t of both arrays written over arrays agreeing below 512·t. -/
theorem streamB_agree (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32)
    (h4 : agree4 A t.val xs4) (h5 : agree5 X A t.val xs5) :
    agree4 A (t.val + 1) (arg4.view.read (Elt F) (arg4.view.writes (Elt F) (harg4.unread xs4) (runB c i arg1 harg1 arg2 harg2 arg3 harg3 arg4 harg4 arg5 harg5 arg6 harg6 hc0 hc1 X (rowBlock A u) xs4 xs5 (narrowFeat X)).1))
    ∧ agree5 X A (t.val + 1) (arg5.view.read (Elt F) (arg5.view.writes (Elt F) (harg5.unread xs5) (runB c i arg1 harg1 arg2 harg2 arg3 harg3 arg4 harg4 arg5 harg5 arg6 harg6 hc0 hc1 X (rowBlock A u) xs4 xs5 (narrowFeat X)).2.1)) := by
  exact ⟨fun y hy => streamB_4 c i arg1 harg1 arg2 harg2 arg3 harg3 arg4 harg4 arg5 harg5 arg6 harg6 hc0 hc1 t hi u hu X A xs4 xs5 (narrowFeat X) h4 y hy,
    fun y hy => streamB_5 c i arg1 harg1 arg2 harg2 arg3 harg3 arg4 harg4 arg5 harg5 arg6 harg6 hc0 hc1 t hi u hu X A xs4 xs5 h5 y hy⟩

/-- The last point: from arrays agreeing below row 3584 the result's buffer ends at the tenth iterate, read
    through any view of the shape over any prior contents. -/
theorem tailC_out (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i)
    (t : Fin cfg0.N) (hi : i = grid0.coords t)
    (X : Vec F S4096x64 .f32) (A : Vec F S4096x4096 .f32) (xs4 : Vec F S4096x4096 .bf16) (xs5 : Vec F S4096x64 .f32)
    (h4 : agree4 A 7 xs4) (h5 : agree5 X A 7 xs5)
    {sig' : RefSig} {κ' : Kind} {sp' : Space} (v : View sig' κ' sp' S4096x64 .f32) (f : v.ty.Contents (Elt F)) :
    v.read (Elt F) (v.writes (Elt F) f (runC c i arg1 harg1 arg2 harg2 arg3 harg3 arg4 harg4 arg5 harg5 arg6 harg6 hc0 hc1 X (rowBlock A 7) xs4 xs5 (narrowFeat X)).1) = feat X A 10 := by
  exact tail_out c i arg1 harg1 arg2 harg2 arg3 harg3 arg4 harg4 arg5 harg5 arg6 harg6 hc0 hc1 t hi X A xs4 xs5 (fun y hy => h4 y (by omega)) (fun y hy => h5 y (by omega)) v f

end Cert.Kernel.Gen

end
-- ==== Proof.FrameK.lean ====
/-
  The frame of the propagation kernel's launch and the value its result array ends at.
  The three scratch buffers are carried from point to point. After a point t < 7 the invariant holds the
  adjacency scratch and the wide feature scratch at SOME contents that agree with the narrowed adjacency
  matrix and with the first propagation step on the rows below 512·(t+1), and the narrow feature scratch at
  the narrowed input features; before the first point and after the last it holds all three at anything.
  The result window is idle and not written back at the points 0 … 6; at point 7 the body leaves the tenth
  iterate in its buffer, and the one write-back, whose block is the whole array, puts it into the result.
-/
import proofs.«163700_g3178275799597_cont_8to1_b_565_9_alg».proof.Proof.OpenK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays and the input windows' blocks -/

/-- The input features as the region finds them. -/
abbrev X (c : Dev nD) : Vec F S4096x64 .f32 := V m c (Pipeline.arrRef spec0 0)
/-- The adjacency matrix as the region finds it. -/
abbrev A (c : Dev nD) : Vec F S4096x4096 .f32 := V m c (Pipeline.arrRef spec0 1)

/-- The printed index maps over the grid: window 0's block index is (0, 0) at every point, window 1's is
    (t, 0) at point t, window 2's is (0, 0) at every point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Window 0's block is the whole feature array at every point. -/
theorem iblk0_eq (c : Dev nD) (t : Fin cfg0.N) : (iblk m c 0 t : Vec F S4096x64 .f32) = X m c := by
  obtain ⟨e0, e1, -, -, -, -⟩ := idx_facts t
  funext x
  unfold iblk
  rw [View.read_apply]
  show V m c main_arg0 (((cfg0.win 0).blk t).view.emb x) = V m c main_arg0 x
  refine congrArg (V m c main_arg0) ?_
  funext a; apply Fin.ext
  match a with
  | ⟨0, _⟩ => show win0_0.index t (0 : Fin 2) * 4096 + 1 * (x 0).val = (x 0).val; rw [e0]; omega
  | ⟨1, _⟩ => show win0_0.index t (1 : Fin 2) * 64 + 1 * (x 1).val = (x 1).val; rw [e1]; omega

/-- Window 1's block at point t is rows 512·t … 512·t + 511 of the adjacency matrix. -/
theorem iblk1_eq (c : Dev nD) (t : Fin cfg0.N) (u : Fin 8) (hu : u.val = t.val) :
    (iblk m c 1 t : Vec F S512x4096 .f32) = rowBlock (A m c) u := by
  obtain ⟨-, -, e2, e3, -, -⟩ := idx_facts t
  funext x
  unfold iblk rowBlock
  rw [View.read_apply]
  show V m c main_arg1 (((cfg0.win 1).blk t).view.emb x) = V m c main_arg1 _
  refine congrArg (V m c main_arg1) ?_
  funext a; apply Fin.ext
  match a with
  | ⟨0, _⟩ => show win0_1.index t (0 : Fin 2) * 512 + 1 * (x 0).val = 512 * u.val + (x 0).val; rw [e2, hu]; omega
  | ⟨1, _⟩ => show win0_1.index t (1 : Fin 2) * 4096 + 1 * (x 1).val = (x 1).val; rw [e3]; omega

/-! ## The invariant carried between points, and the proof data -/

/-- What the invariant holds before point n for 0 < n < 8: the adjacency scratch and the wide feature scratch
    at some contents agreeing with the narrowed adjacency matrix and with the first propagation step on the
    rows below 512·n, the narrow feature scratch at the narrowed input features, the generator register at
    some state. -/
def PhiMid (c : Dev nD) (n : ℕ) : sProp 𝕄 :=
  iprop((∃ (d4 : Vec F S4096x4096 .bf16) (d5 : Vec F S4096x64 .f32), ⌜agree4 (A m c) n d4⌝ ∗ ⌜agree5 (X m c) (A m c) n d5⌝
      ∗ owns (c : Thread nD τ) scM0_0 fullShare d4 ∗ owns (c : Thread nD τ) scM0_1 fullShare d5
      ∗ owns (c : Thread nD τ) scM0_2 fullShare (narrowFeat (X m c))) ∗ (∃ r, prngReg c r))

/-- The region invariant before position n: between the first point and the last the carried scratch as
    `PhiMid` states it; before the first point and after the last every scratch at anything. -/
def PhiS (c : Dev nD) (n : ℕ) : sProp 𝕄 :=
  if 0 < n ∧ n < 8 then PhiMid m c n else Pipeline.ΦA spec0 c

theorem PhiS_edge (c : Dev nD) (n : ℕ) (h : n = 0 ∨ 8 ≤ n) : PhiS m c n = Pipeline.ΦA spec0 c :=
  if_neg (by omega)

theorem PhiS_mid (c : Dev nD) (n : ℕ) (h0 : 0 < n) (h8 : n < 8) : PhiS m c n = PhiMid m c n :=
  if_pos ⟨h0, h8⟩

/-- The proof data of the one pipeline on core c: the arrays as the region finds them; after the body at
    point t each input's buffer at its block and the result's buffer at the tenth iterate (consulted at
    point 7 only, the one point where the window is live); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => feat (X m c) (A m c) 10
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a position. -/
theorem Phi_eq (c : Dev nD) (t : Fin (cfg0.N + 1)) : (dats m 0 c).Φ t = PhiS m c t.val := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = feat (X m c) (A m c) 10 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The two input windows are live at every point: the body leaves their buffers at their blocks. -/
theorem leaves0_0 (c : Dev nD) (t : Fin cfg0.N) :
    (dats m 0 c).leavesExact 0 t = owns (c : Thread nD τ) (ms0_0 t) fullShare (X m c) := by
  unfold Dat.leavesExact; rw [liveAt0_0 t, after0_0, iblk0_eq]
theorem leaves0_1 (c : Dev nD) (t : Fin cfg0.N) (u : Fin 8) (hu : u.val = t.val) :
    (dats m 0 c).leavesExact 1 t = owns (c : Thread nD τ) (ms0_1 t) fullShare (rowBlock (A m c) u) := by
  unfold Dat.leavesExact; rw [liveAt0_1 t, after0_1, iblk1_eq m c t u hu]
/-- The result window at point 7: the body leaves the tenth iterate in its buffer. -/
theorem leaves0_2_last (c : Dev nD) (t : Fin cfg0.N) (h : cond0_1 (grid0.coords t)) :
    (dats m 0 c).leavesExact 2 t = owns (c : Thread nD τ) (ms0_2 t) fullShare (feat (X m c) (A m c) 10) := by
  unfold Dat.leavesExact; rw [liveAt0_2 t h, after0_2]

set_option maxHeartbeats 4800000 in
/-- The body at any point. The inputs' memrefs hold their blocks; the closed forms say which of the three
    cases the point is in; the invariant hands the body the scratch buffers — at anything at the first point,
    afterwards at contents agreeing with the specification on the rows written so far — and takes them back
    agreeing on 512 more rows, or, after the last point, at anything; at the last point the result's buffer
    is left at the tenth iterate; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before0_0, before0_1]
  rw [iblk0_eq, iblk1_eq m c t ⟨t.val, hN⟩ rfl, leaves0_0, leaves0_1 m c t ⟨t.val, hN⟩ rfl]
  rw [show (dats m 0 c).owesAt () t.succ = (dats m 0 c).owesAt () t.castSucc from rfl]
  rw [Phi_eq, Phi_eq, Fin.coe_castSucc, Fin.val_succ]
  by_cases h0 : t.val = 0
  · -- the first point
    have hc0 : cond0_0 (grid0.coords t) := (hcond0_0 t).mpr h0
    have hc1 : ¬cond0_1 (grid0.coords t) := fun h => absurd ((hcond0_1 t).mp h) (by omega)
    rw [Dat.leavesExact_idle (dats m 0 c) 2 t (idleAt0_2 t hc1) (noFlush0_2 t hc1)]
    rw [PhiS_edge m c _ (Or.inl h0), PhiA0_eq, PhiS_mid m c _ (by omega) (by omega)]
    unfold PhiMid
    iintro ⟨⟨⟨⟨%d4, HS0⟩, ⟨%d5, HS1⟩, ⟨%d6, HS2⟩⟩, Hg⟩, Ho, ⟨%e0, H0⟩, ⟨%e1, H1⟩, ⟨%e2, H2⟩⟩
    iapply ((runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) ⟨t.val, hN⟩) d4 d5 d6).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    have hA := streamA_agree c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl ⟨t.val, hN⟩ rfl (X m c) (A m c) d4 d5 d6
    isplitl [HS0 HS1 HS2 Hg]
    · isplitr [Hg]
      · iexists _, _
        isplitr; · ipureintro; exact hA.1
        isplitr; · ipureintro; exact hA.2.1
        isplitl [HS0]; · iapply (owns_intro (c : Thread nD τ) scM0_0 fullShare _); iexact HS0
        isplitl [HS1]; · iapply (owns_intro (c : Thread nD τ) scM0_1 fullShare _); iexact HS1
        unfold owns; iexists _; isplitr
        · ipureintro; exact hA.2.2
        · iexact HS2
      · iexact Hg
    isplitl [Ho]; · iexact Ho
    isplitl [H0]; · iexact H0
    isplitl [H1]; · iexact H1
    iexists _; iexact H2
  · by_cases h7 : t.val = 7
    · -- the last point
      have hc0 : ¬cond0_0 (grid0.coords t) := fun h => h0 ((hcond0_0 t).mp h)
      have hc1 : cond0_1 (grid0.coords t) := (hcond0_1 t).mpr h7
      rw [leaves0_2_last m c t hc1]
      rw [PhiS_mid m c _ (by omega) (by omega), PhiS_edge m c _ (Or.inr (by omega)), PhiA0_eq]
      unfold PhiMid
      rw [show rowBlock (A m c) ⟨t.val, hN⟩ = rowBlock (A m c) 7 from congrArg (rowBlock (A m c)) (Fin.ext h7)]
      iintro ⟨⟨⟨%d4, %d5, %h4, %h5, HS0, HS1, HS2⟩, Hg⟩, Ho, ⟨%e0, H0⟩, ⟨%e1, H1⟩, ⟨%e2, H2⟩⟩
      rw [h7] at h4 h5
      iapply ((runC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) 7) d4 d5 (narrowFeat (X m c))).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%f3, H2⟩, HS0, HS1, HS2⟩
      isplitl [HS0 HS1 HS2 Hg]
      · isplitr [Hg]
        · isplitl [HS0]; · iexists _; iapply (owns_intro (c : Thread nD τ) scM0_0 fullShare _); iexact HS0
          isplitl [HS1]; · iexists _; iapply (owns_intro (c : Thread nD τ) scM0_1 fullShare _); iexact HS1
          iexists _; iapply (owns_intro (c : Thread nD τ) scM0_2 fullShare _); iexact HS2
        · iexact Hg
      isplitl [Ho]; · iexact Ho
      isplitl [H0]; · iexact H0
      isplitl [H1]; · iexact H1
      unfold owns; iexists _; isplitr
      · ipureintro
        exact tailC_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl (X m c) (A m c) d4 d5 h4 h5 (ms0_2 t).view f3
      · iexact H2
    · -- a middle point
      have hc0 : ¬cond0_0 (grid0.coords t) := fun h => h0 ((hcond0_0 t).mp h)
      have hc1 : ¬cond0_1 (grid0.coords t) := fun h => h7 ((hcond0_1 t).mp h)
      rw [Dat.leavesExact_idle (dats m 0 c) 2 t (idleAt0_2 t hc1) (noFlush0_2 t hc1)]
      rw [PhiS_mid m c _ (by omega) (by omega), PhiS_mid m c _ (by omega) (by omega)]
      unfold PhiMid
      iintro ⟨⟨⟨%d4, %d5, %h4, %h5, HS0, HS1, HS2⟩, Hg⟩, Ho, ⟨%e0, H0⟩, ⟨%e1, H1⟩, ⟨%e2, H2⟩⟩
      iapply ((runB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) ⟨t.val, hN⟩) d4 d5 (narrowFeat (X m c))).2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      have hB := streamB_agree c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl ⟨t.val, hN⟩ rfl (X m c) (A m c) d4 d5 h4 h5
      isplitl [HS0 HS1 HS2 Hg]
      · isplitr [Hg]
        · iexists _, _
          isplitr; · ipureintro; exact hB.1
          isplitr; · ipureintro; exact hB.2
          isplitl [HS0]; · iapply (owns_intro (c : Thread nD τ) scM0_0 fullShare _); iexact HS0
          isplitl [HS1]; · iapply (owns_intro (c : Thread nD τ) scM0_1 fullShare _); iexact HS1
          iexact HS2
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [Phi_eq, PhiS_edge m c _ (Or.inl (Fin.val_zero _))]

/-- After the last point the invariant is the launch's again: every scratch at anything. -/
theorem hout (c : Dev nD) : (dats m 0 c).Φ (Fin.last cfg0.N) ⊢ Pipeline.ΦA spec0 c := by
  rw [Phi_eq, PhiS_edge m c _ (Or.inr (by rw [Fin.val_last]; exact le_of_eq N_0.symm))]

/-! ## The run and the frame -/

set_option backward.isDefEq.respectTransparency.types false in
/-- At the compiled mesh, for any values, from any memory with zero counters: every weakly fair execution
    of @main on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The value the result array ends at -/

/-- What a write-back of the result window writes is the tenth iterate read through the window's block
    (the block is the whole array, at index (0, 0)). -/
theorem flushed_eq (c : Dev nD) (t : Fin cfg0.N) :
    (dats m 0 c).flushed 2 t = ((cfg0.win 2).blk t).view.read (Elt F) (feat (X m c) (A m c) 10) := by
  obtain ⟨-, -, -, -, e4, e5⟩ := idx_facts t
  show (cfg0.win 2).cut (grid0.coords t) ((dats m 0 c).after 2 t) = _
  rw [after0_2]
  funext y
  rw [View.read_apply]
  show feat (X m c) (A m c) 10 y = feat (X m c) (A m c) 10 (((cfg0.win 2).blk t).view.emb y)
  refine congrArg (feat (X m c) (A m c) 10) ?_
  funext a; apply Fin.ext
  match a with
  | ⟨0, _⟩ => show (y 0).val = win0_2.index t (0 : Fin 2) * 4096 + 1 * (y 0).val; rw [e4]; omega
  | ⟨1, _⟩ => show (y 1).val = win0_2.index t (1 : Fin 2) * 64 + 1 * (y 1).val; rw [e5]; omega

/-- An index of the result array is in point t's block iff each coordinate is in the block's range on its axis. -/
theorem mem_blk2 (t : Fin cfg0.N) (i : S4096x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v0).slice (win0_2.rect t)).set ↔ _
  rw [View.set_slice_whole, Rect.mem_set_unit]
  exact Iff.rfl

/-- Every index of the result array lies in the block of point 7, the one point that writes back. -/
theorem cover2 (i : S4096x64.Idx) :
    ∃ t : Fin cfg0.N, (cfg0.win 2).flush t = true ∧ i ∈ ((cfg0.win 2).blk t).view.set := by
  refine ⟨t0_7, (flush0_2 t0_7).mpr rfl, ?_⟩
  obtain ⟨-, -, -, -, e4, e5⟩ := idx_facts t0_7
  rw [mem_blk2]
  intro a
  match a with
  | ⟨0, _⟩ => show win0_2.index t0_7 (0 : Fin 2) * 4096 ≤ (i 0).val ∧ (i 0).val < win0_2.index t0_7 (0 : Fin 2) * 4096 + 4096; have := idx2_lt0 i; rw [e4]; omega
  | ⟨1, _⟩ => show win0_2.index t0_7 (1 : Fin 2) * 64 ≤ (i 1).val ∧ (i 1).val < win0_2.index t0_7 (1 : Fin 2) * 64 + 64; have := idx2_lt1 i; rw [e5]; omega

/-- So the result array ends holding the tenth iterate. -/
theorem final_out (c : Dev nD) : (dats m 0 c).arrAt 2 cfg0.N = feat (X m c) (A m c) 10 :=
  (dats m 0 c).arrAt_eq_of_cover 2 (feat (X m c) (A m c) 10) (fun t _ => flushed_eq m c t) cover2

/-- The run, read: the result array at ten propagation steps from the input features, both arguments as launched. -/
theorem run_value : θ_run defs (onTc (τ := τ) (main (F := F))) ⟨m, fun _ => 0, ρ⟩ (fun r => ∀ c : Dev nD,
      r.2.mem ((c.tc : Thread nD τ).loc main_v0) = feat (X m c) (A m c) 10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel.Gen

end
-- ==== Proof.SpecI.lean ====
/-
  The propagation kernel's result as ONE function of its two argument arrays, at any float instance.
  The kernel works on row blocks of 512: it narrows the adjacency matrix block by block, narrows the
  features whole, and a propagation step stores, block by block, 0.9 times the product of the narrowed
  adjacency block with the narrowed features plus 0.1 times the block of the input features. Ten such
  steps from the input features give the result. The three arithmetic pieces are the body's own terms
  (narrowing the features, narrowing an adjacency block, one block of one step); here they are stacked
  into whole arrays.
-/
import proofs.«163700_g3178275799597_cont_8to1_b_565_9_alg».proof.Proof.Gen.KernelIdeal.Skeleton
import Idealize.ShloMosaic.Lib.ValueIdx

noncomputable section

namespace Cert.KernelIdeal.Gen

open Idealize.ShloMosaic Idealize.ShloMosaic.ValueIdx

variable {F : FTy → Type} [FloatOps F]

/-- Rows 512·u … 512·u + 511 of an array of 4096 rows. -/
def rowBlock {n : Nat} {α : Type} (X : (⟨2, ![4096, n]⟩ : Shape).Idx → α) (u : Fin 8) : (⟨2, ![512, n]⟩ : Shape).Idx → α :=
  fun j => X (ix2 (⟨512 * u.val + (j 0).val, by have := idx2_lt0 j; have := u.isLt; omega⟩ : Fin 4096) (j 1 : Fin n))

/-- Eight blocks of 512 rows stacked into an array of 4096 rows: row r is row r % 512 of block r / 512. -/
def stackRows {n : Nat} {α : Type} (q : Fin 8 → (⟨2, ![512, n]⟩ : Shape).Idx → α) : (⟨2, ![4096, n]⟩ : Shape).Idx → α :=
  fun y => q ⟨(y 0).val / 512, by have := idx2_lt0 y; omega⟩
    (ix2 (⟨(y 0).val % 512, Nat.mod_lt _ (by norm_num)⟩ : Fin 512) (y 1 : Fin n))

/-- Stacking an array's own row blocks gives the array back. -/
theorem stackRows_rowBlock {n : Nat} {α : Type} (X : (⟨2, ![4096, n]⟩ : Shape).Idx → α) :
    stackRows (fun u => rowBlock X u) = X := by
  funext y
  unfold stackRows rowBlock
  refine congrArg X ?_
  funext a; match a with
  | ⟨0, _⟩ => exact Fin.ext (by show 512 * ((y 0).val / 512) + (y 0).val % 512 = (y 0).val; omega)
  | ⟨1, _⟩ => rfl

/-- Block u of a stack is its u-th block. -/
theorem rowBlock_stackRows {n : Nat} {α : Type} (q : Fin 8 → (⟨2, ![512, n]⟩ : Shape).Idx → α) (u : Fin 8) :
    rowBlock (stackRows q) u = q u := by
  funext j
  unfold stackRows rowBlock
  have hj := idx2_lt0 j
  have h1 : (512 * u.val + (j 0).val) / 512 = u.val := by omega
  have h2 : (512 * u.val + (j 0).val) % 512 = (j 0).val := by omega
  have e1 : (⟨(512 * u.val + (j 0).val) / 512, by have := u.isLt; omega⟩ : Fin 8) = u := Fin.ext h1
  show q ⟨(512 * u.val + (j 0).val) / 512, _⟩ (ix2 ⟨(512 * u.val + (j 0).val) % 512, _⟩ (j 1)) = q u j
  rw [e1]
  refine congrArg (q u) ?_
  funext a; match a with
  | ⟨0, _⟩ => exact Fin.ext h2
  | ⟨1, _⟩ => rfl

/-- The features narrowed whole (the body's own term). -/
def narrowFeat (h : Vec F S4096x64 .f32) : Vec F S4096x64 .bf16 := k0_pay1 h
/-- One adjacency block narrowed (the body's own term). -/
def narrowAdj (a : Vec F S512x4096 .f32) : Vec F S512x4096 .bf16 := k0_pay2 a
/-- One block of one propagation step: 0.9 · (narrow adjacency block · narrow features) + 0.1 · (block of the input
    features) (the body's own term). -/
def tileStep (a : Vec F S512x4096 .bf16) (hb : Vec F S4096x64 .bf16) (xt : Vec F S512x64 .f32) : Vec F S512x64 .f32 :=
  k0_pay3 a hb xt

/-- The adjacency matrix narrowed block by block. -/
def adjNarrow (A : Vec F S4096x4096 .f32) : Vec F S4096x4096 .bf16 := stackRows fun u => narrowAdj (rowBlock A u)

/-- One propagation step over all eight blocks, from the narrow adjacency `ab`, the input features `x` and the
    current features `h`. -/
def propStep (ab : Vec F S4096x4096 .bf16) (x h : Vec F S4096x64 .f32) : Vec F S4096x64 .f32 :=
  stackRows fun u => tileStep (rowBlock ab u) (narrowFeat h) (rowBlock x u)

/-- The features after n propagation steps. -/
def feat (X : Vec F S4096x64 .f32) (A : Vec F S4096x4096 .f32) : ℕ → Vec F S4096x64 .f32
  | 0 => X
  | n + 1 => propStep (adjNarrow A) X (feat X A n)

end Cert.KernelIdeal.Gen

end
-- ==== Proof.CasesI.lean ====
/-
  The three control cases of the propagation kernel's body and what they are stated over.
  The grid has eight points, one per 512-row block of the adjacency matrix. The body branches twice on the
  point's number: at point 0 it first copies the features into the narrow feature scratch; at point 7 it
  runs, after the streaming step every point runs, the nine remaining propagation steps. So a point is in
  one of three cases: the first (only the first branch taken), a middle one (neither), the last (only the
  second). The two conditions are decided over the grid in closed form here, together with where the
  result window is idle, the staging and scratch memrefs the body is called with, and the launch's region
  invariant with the three scratch buffers held as memrefs.
-/
import proofs.«163700_g3178275799597_cont_8to1_b_565_9_alg».proof.Proof.Gen.KernelIdeal.Launch
import proofs.«163700_g3178275799597_cont_8to1_b_565_9_alg».proof.Proof.Gen.KernelIdeal.Skeleton
import proofs.«163700_g3178275799597_cont_8to1_b_565_9_alg».proof.Proof.Gen.KernelIdeal.Points
import proofs.«163700_g3178275799597_cont_8to1_b_565_9_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the point's number is zero), as the body computes it. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch's condition (the point's number is seven). -/
abbrev cond0_1 (i : grid0.Coords) : Prop := k0_cond2 i = 1#1
/-- It holds at point 7 only. -/
theorem hcond0_1 : ∀ t : Fin cfg0.N, cond0_1 (grid0.coords t) ↔ t.val = 7 :=
  (by decide +kernel : ∀ t : Fin grid0.N, cond0_1 (grid0.coords t) ↔ t.val = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from point 7 the result window is idle (the body stores nothing into it) and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At point 7 it is live. -/
theorem liveAt0_2 : ∀ t : Fin cfg0.N, cond0_1 (grid0.coords t) → cfg0.idle 2 (grid0.coords t) = false := by decide +kernel

/-- Each window's current staging memref at point `t`, as the pipeline passes it, and its wholeness. -/
abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
/-- The three scratch operands: the narrow adjacency copy, the wide features, the narrow features. -/
abbrev scM0_0 : Memref sig .tc .vmem S4096x4096 .bf16 := Memref.whole cc0_scratch0
abbrev scM0_1 : Memref sig .tc .vmem S4096x64 .f32 := Memref.whole cc0_scratch1
abbrev scM0_2 : Memref sig .tc .vmem S4096x64 .bf16 := Memref.whole cc0_scratch2

/-- The launch's region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunAI.lean ====
/-
  The body's run at the first point (the first branch taken): the features are narrowed into the narrow
  feature scratch, then the streaming step as at every point — the point's 512 adjacency rows narrowed into
  the adjacency scratch, multiplied with the narrow features, and the first propagation step's 512 rows
  stored into the wide feature scratch.
-/
import proofs.«163700_g3178275799597_cont_8to1_b_565_9_alg».proof.Proof.CasesI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the three scratch buffers (last first), with the proof that from
    whole memrefs — the two input blocks at `x0`, `x1`, the idle result buffer at anything, the scratch
    buffers at `xs4`, `xs5`, `xs6` — the body runs to its return leaving the inputs and the result buffer
    as they were and each scratch buffer with its stores over what it held. -/
noncomputable def runA (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (x0 : Vec F S4096x64 .f32) (x1 : Vec F S512x4096 .f32) (xs4 : Vec F S4096x4096 .bf16) (xs5 : Vec F S4096x64 .f32) (xs6 : Vec F S4096x64 .bf16) :
    Σ' (L4 : List (View.Piece (Elt F) S4096x4096 .bf16)) (L5 : List (View.Piece (Elt F) S4096x64 .f32)), { L6 : List (View.Piece (Elt F) S4096x64 .bf16) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare xi3
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi3
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, fun xi3 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexact H6

end Cert.KernelIdeal.Gen

end
-- ==== Proof.RunBI.lean ====
/-
  The body's run at a middle point (neither branch taken): the point's 512 adjacency rows are narrowed into
  the adjacency scratch, multiplied with the narrow features, and the first propagation step's 512 rows
  stored into the wide feature scratch. What the two scratch buffers end with is the list of the run's
  stores over what they held, found by the run.
-/
import proofs.«163700_g3178275799597_cont_8to1_b_565_9_alg».proof.Proof.CasesI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the adjacency scratch and in the wide feature scratch (last first),
    with the proof that from whole memrefs — the two input blocks at `x0`, `x1`, the idle result buffer at
    anything, the three scratch buffers at `xs4`, `xs5`, `xs6` — the body runs to its return leaving the inputs,
    the result buffer and the narrow features as they were and the two written scratch buffers with these
    stores over what they held. -/
noncomputable def runB (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (x0 : Vec F S4096x64 .f32) (x1 : Vec F S512x4096 .f32) (xs4 : Vec F S4096x4096 .bf16) (xs5 : Vec F S4096x64 .f32) (xs6 : Vec F S4096x64 .bf16) :
    Σ' (L4 : List (View.Piece (Elt F) S4096x4096 .bf16)), { L5 : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare xi3
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi3
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ owns (c : Thread nD τ) arg6 fullShare xs6) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, fun xi3 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexists _; isplitr; · ipureintro; exact harg6.read_unread _
    iexact H6

end Cert.KernelIdeal.Gen

end
-- ==== Proof.RunCI.lean ====
/-
  The body's run at the last point (the second branch taken): the streaming step as at every point, then
  the nine remaining propagation steps. Each step narrows the wide feature scratch whole into the narrow
  one, then, tile by tile of 512 rows, multiplies the adjacency scratch's tile with the narrow features and
  stores the step's rows — into the wide feature scratch for the first eight steps, into the result's
  buffer for the ninth.
-/
import proofs.«163700_g3178275799597_cont_8to1_b_565_9_alg».proof.Proof.CasesI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The stores the last point leaves in the result's buffer and the three scratch buffers (last first),
    with the proof that from whole memrefs — the two input blocks at `x0`, `x1`, the result buffer at
    anything, the scratch buffers at `xs4`, `xs5`, `xs6` — the body runs to its return leaving the inputs
    as they were, the result buffer with its stores over something, and each scratch buffer with its
    stores over what it held. -/
noncomputable def runC (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i)
    (x0 : Vec F S4096x64 .f32) (x1 : Vec F S512x4096 .f32) (xs4 : Vec F S4096x4096 .bf16) (xs5 : Vec F S4096x64 .f32) (xs6 : Vec F S4096x64 .bf16) :
    Σ' (L3 : List (View.Piece (Elt F) S4096x64 .f32)) (L4 : List (View.Piece (Elt F) S4096x4096 .bf16)) (L5 : List (View.Piece (Elt F) S4096x64 .f32)), { L6 : List (View.Piece (Elt F) S4096x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs4 ∗ owns (c : Thread nD τ) arg5 fullShare xs5 ∗ owns (c : Thread nD τ) arg6 fullShare xs6
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, ?_, fun E K => ?run⟩
  case run =>
    simp only [cc0__appnp_body_eq_skeleton]; unfold cc0__appnp_body_skel
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg1.eq_unread hf1; obtain rfl := harg2.eq_unread hf2
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexact H4
    isplitl [H5]; · iexact H5
    iexact H6

end Cert.KernelIdeal.Gen

end
-- ==== Proof.StreamI.lean ====
/-
  The streaming step's two stores read back. At point t the body narrows the point's adjacency block into
  rows 512·t … of the adjacency scratch and stores block t of the first propagation step — the product of
  that narrowed block with the narrow features, scaled, plus the scaled block of the input features — into
  the same rows of the wide feature scratch. Read at an index, the rows below 512·t keep what they held and
  the rows of block t hold the specification's rows.
-/
import proofs.«163700_g3178275799597_cont_8to1_b_565_9_alg».proof.Proof.SpecI
import proofs.«163700_g3178275799597_cont_8to1_b_565_9_alg».proof.Proof.RunAI
import proofs.«163700_g3178275799597_cont_8to1_b_565_9_alg».proof.Proof.RunBI
import proofs.«163700_g3178275799597_cont_8to1_b_565_9_alg».proof.Proof.LibRowBlocks
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The one coordinate of a grid point is its number. -/
theorem coords_val : ∀ t : Fin cfg0.N, ((grid0.coords t) 0).val = t.val :=
  (by decide +kernel : ∀ t : Fin grid0.N, ((grid0.coords t) 0).val = t.val)

theorem zeros2 : (![0, 0] : Fin 2 → Nat) = fun _ => 0 := by funext a; fin_cases a <;> rfl

/-- A load of 512 whole rows at row 512·u reads the array's u-th row block. -/
theorem ld_rowBlock {n : Nat} {e : EltTy} (X : (⟨2, ![4096, n]⟩ : Shape).Idx → Elt F e) {off : Fin 2 → Nat} (u : Fin 8)
    (hoff : off = ![512 * u.val, 0])
    (inb : ∀ a, off a + (⟨2, ![512, n]⟩ : Shape).size a ≤ (⟨2, ![4096, n]⟩ : Shape).size a) :
    View.ld X (Rect.unit (s := (⟨2, ![4096, n]⟩ : Shape)) off (⟨2, ![512, n]⟩ : Shape).size inb) = rowBlock X u := by
  subst hoff
  funext j
  unfold rowBlock
  show X ((Rect.unit (s := (⟨2, ![4096, n]⟩ : Shape)) ![512 * u.val, 0] (⟨2, ![512, n]⟩ : Shape).size inb).idx j) = _
  refine congrArg X ?_
  funext a; apply Fin.ext
  match a with
  | ⟨0, _⟩ => show 512 * u.val + 1 * (j 0).val = 512 * u.val + (j 0).val; omega
  | ⟨1, _⟩ => show 0 + 1 * (j 1).val = (j 1).val; omega

/-- The specification's narrowed adjacency at an index of row block u. -/
theorem adjNarrow_apply (A : Vec F S4096x4096 .f32) (u : Fin 8) (y : S4096x4096.Idx) (o : Nat) (ho : o = 512 * u.val)
    (hlo : o ≤ (y 0).val) (hhi : (y 0).val < o + 512) :
    adjNarrow A y = narrowAdj (rowBlock A u) (ix2 (⟨(y 0).val - o, by omega⟩ : Fin 512) (y 1 : Fin 4096)) := by
  subst ho
  unfold adjNarrow stackRows
  have hu' : (⟨(y 0).val / 512, by have := idx2_lt0 y; omega⟩ : Fin 8) = u := Fin.ext (by show (y 0).val / 512 = u.val; omega)
  rw [hu']
  refine congrArg (narrowAdj (rowBlock A u)) ?_
  funext a; match a with
  | ⟨0, _⟩ => exact Fin.ext (by show (y 0).val % 512 = (y 0).val - 512 * u.val; omega)
  | ⟨1, _⟩ => rfl

/-- One propagation step at an index of row block u. -/
theorem propStep_apply (ab : Vec F S4096x4096 .bf16) (x h : Vec F S4096x64 .f32) (u : Fin 8) (y : S4096x64.Idx) (o : Nat)
    (ho : o = 512 * u.val) (hlo : o ≤ (y 0).val) (hhi : (y 0).val < o + 512) :
    propStep ab x h y = tileStep (rowBlock ab u) (narrowFeat h) (rowBlock x u) (ix2 (⟨(y 0).val - o, by omega⟩ : Fin 512) (y 1 : Fin 64)) := by
  subst ho
  unfold propStep stackRows
  have hu' : (⟨(y 0).val / 512, by have := idx2_lt0 y; omega⟩ : Fin 8) = u := Fin.ext (by show (y 0).val / 512 = u.val; omega)
  rw [hu']
  refine congrArg (tileStep (rowBlock ab u) (narrowFeat h) (rowBlock x u)) ?_
  funext a; match a with
  | ⟨0, _⟩ => exact Fin.ext (by show (y 0).val % 512 = (y 0).val - 512 * u.val; omega)
  | ⟨1, _⟩ => rfl

set_option maxHeartbeats 1000000 in
theorem streamB_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (h4 : ∀ y : S4096x4096.Idx, (y 0).val < 512 * t.val → xs4 y = adjNarrow A y)
    (y : S4096x4096.Idx) (hy : (y 0).val < 512 * (t.val + 1)) :
    arg4.view.read (Elt F) (arg4.view.writes (Elt F) (harg4.unread xs4) (runB c i arg1 harg1 arg2 harg2 arg3 harg3 arg4 harg4 arg5 harg5 arg6 harg6 hc0 hc1 X (rowBlock A u) xs4 xs5 xs6).1) y = adjNarrow A y := by
  subst hi
  have hk1 := k0_off1_eq (grid0.coords t)
  have hcv := coords_val t
  unfold runB; dsimp only; unfold runB.sl.H4_1
  by_cases hlt : (y 0).val < 512 * t.val
  · rw [RowBlocks.read_single_rows _ _ (512 * ((grid0.coords t) 0).val) hk1 _ _ y (by omega), harg4.read_unread]
    exact h4 y hlt
  · rw [RowBlocks.read_cons_rows_mem _ _ (512 * ((grid0.coords t) 0).val) hk1 _ _ [] y (by omega) (by omega)]
    rw [View.readAt_eq_ld, harg2.read_unread, View.ld_unit_zero zeros2]
    rw [adjNarrow_apply A u y (512 * ((grid0.coords t) 0).val) (by omega) (by omega) (by omega)]
    rfl

set_option maxHeartbeats 1000000 in
theorem streamB_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32)
    (h5 : ∀ y : S4096x64.Idx, (y 0).val < 512 * t.val → xs5 y = feat X A 1 y)
    (y : S4096x64.Idx) (hy : (y 0).val < 512 * (t.val + 1)) :
    arg5.view.read (Elt F) (arg5.view.writes (Elt F) (harg5.unread xs5) (runB c i arg1 harg1 arg2 harg2 arg3 harg3 arg4 harg4 arg5 harg5 arg6 harg6 hc0 hc1 X (rowBlock A u) xs4 xs5 (narrowFeat X)).2.1) y = feat X A 1 y := by
  subst hi
  have hk1 := k0_off1_eq (grid0.coords t)
  have hk2 := k0_off2_eq (grid0.coords t)
  have hcv := coords_val t
  unfold runB; dsimp only
  by_cases hlt : (y 0).val < 512 * t.val
  · rw [RowBlocks.read_single_rows _ _ (512 * ((grid0.coords t) 0).val) hk2 _ _ y (by omega), harg5.read_unread]
    exact h5 y hlt
  · rw [RowBlocks.read_cons_rows_mem _ _ (512 * ((grid0.coords t) 0).val) hk2 _ _ [] y (by omega) (by omega)]
    have hoff2 : k0_off2 (grid0.coords t) = ![512 * u.val, 0] := by rw [hk2, hcv, hu]
    unfold runB.sl.v11 runB.sl.H4_1
    rw [View.readCov_cons_toLoadRect]
    rw [View.readAt_eq_ld, harg2.read_unread, View.ld_unit_zero zeros2]
    rw [View.readAt_eq_ld, harg6.read_unread, View.ld_unit_zero zeros2]
    rw [View.readAt_eq_ld, harg1.read_unread, ld_rowBlock X u hoff2]
    show _ = propStep (adjNarrow A) X X y
    rw [propStep_apply (adjNarrow A) X X u y (512 * ((grid0.coords t) 0).val) (by omega) (by omega) (by omega)]
    have hab : rowBlock (adjNarrow A) u = narrowAdj (rowBlock A u) := by
      unfold adjNarrow; exact rowBlock_stackRows _ u
    rw [hab]
    rfl

set_option maxHeartbeats 1000000 in
theorem streamA_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (y : S4096x4096.Idx) (hy : (y 0).val < 512 * (t.val + 1)) :
    arg4.view.read (Elt F) (arg4.view.writes (Elt F) (harg4.unread xs4) (runA c i arg1 harg1 arg2 harg2 arg3 harg3 arg4 harg4 arg5 harg5 arg6 harg6 hc0 hc1 X (rowBlock A u) xs4 xs5 xs6).1) y = adjNarrow A y := by
  subst hi
  have ht0 : t.val = 0 := (hcond0_0 t).mp hc0
  have hk1 := k0_off1_eq (grid0.coords t)
  have hcv := coords_val t
  unfold runA; dsimp only; unfold runA.sl.H4_1
  rw [RowBlocks.read_cons_rows_mem _ _ (512 * ((grid0.coords t) 0).val) hk1 _ _ [] y (by omega) (by omega)]
  rw [View.readAt_eq_ld, harg2.read_unread, View.ld_unit_zero zeros2]
  rw [adjNarrow_apply A u y (512 * ((grid0.coords t) 0).val) (by omega) (by omega) (by omega)]
  rfl

set_option maxHeartbeats 1000000 in
theorem streamA_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16)
    (y : S4096x64.Idx) (hy : (y 0).val < 512 * (t.val + 1)) :
    arg5.view.read (Elt F) (arg5.view.writes (Elt F) (harg5.unread xs5) (runA c i arg1 harg1 arg2 harg2 arg3 harg3 arg4 harg4 arg5 harg5 arg6 harg6 hc0 hc1 X (rowBlock A u) xs4 xs5 xs6).2.1) y = feat X A 1 y := by
  subst hi
  have ht0 : t.val = 0 := (hcond0_0 t).mp hc0
  have hk1 := k0_off1_eq (grid0.coords t)
  have hk2 := k0_off2_eq (grid0.coords t)
  have hcv := coords_val t
  unfold runA; dsimp only
  rw [RowBlocks.read_cons_rows_mem _ _ (512 * ((grid0.coords t) 0).val) hk2 _ _ [] y (by omega) (by omega)]
  have hoff2 : k0_off2 (grid0.coords t) = ![512 * u.val, 0] := by rw [hk2, hcv, hu]
  unfold runA.sl.v11 runA.sl.H4_1 runA.sl.v12 runA.sl.H6_1
  rw [View.readCov_cons_toLoadRect, View.readCov_cons_toLoadRect]
  rw [View.readAt_eq_ld, harg2.read_unread, View.ld_unit_zero zeros2]
  rw [View.readAt_eq_ld, harg1.read_unread, View.ld_unit_zero zeros2]
  rw [View.readAt_eq_ld, harg1.read_unread, ld_rowBlock X u hoff2]
  show _ = propStep (adjNarrow A) X X y
  rw [propStep_apply (adjNarrow A) X X u y (512 * ((grid0.coords t) 0).val) (by omega) (by omega) (by omega)]
  have hab : rowBlock (adjNarrow A) u = narrowAdj (rowBlock A u) := by
    unfold adjNarrow; exact rowBlock_stackRows _ u
  rw [hab]
  rfl

theorem streamA_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (X : Vec F S4096x64 .f32) (x1 : Vec F S512x4096 .f32) (xs4 : Vec F S4096x4096 .bf16) (xs5 : Vec F S4096x64 .f32) (xs6 : Vec F S4096x64 .bf16) :
    arg6.view.read (Elt F) (arg6.view.writes (Elt F) (harg6.unread xs6) (runA c i arg1 harg1 arg2 harg2 arg3 harg3 arg4 harg4 arg5 harg5 arg6 harg6 hc0 hc1 X x1 xs4 xs5 xs6).2.2.1) = narrowFeat X := by
  unfold runA; dsimp only; unfold runA.sl.H6_1
  rw [View.read_writes_eq_canon _ _ _ (fun y => ⟨_, List.mem_singleton_self _, View.mem_set_unit_zero zeros2 inb_S4096x64_S4096x64_0_0 y⟩),
    View.canon_unit_zero zeros2]
  rw [View.readAt_eq_ld, harg1.read_unread, View.ld_unit_zero zeros2]
  rfl

end Cert.KernelIdeal.Gen

end
-- ==== Proof.TailI.lean ====
/-
  The last point's stores read back: the nine remaining propagation steps.
  After the streaming step the adjacency scratch holds the narrowed adjacency matrix on every row (rows
  below 3584 by hypothesis, the last block just written) and the wide feature scratch the first iterate.
  Each later step narrows the wide features whole, then writes, tile by tile of 512 rows (the newest store
  first in the list: rows 3584, 3072, …, 0), one block of the next iterate computed from the adjacency tile,
  the narrowed features and the input features' tile. Eight such tiles read back as the next iterate
  whatever the buffer held before; so the ninth step leaves the tenth iterate in the result's buffer.
-/
import proofs.«163700_g3178275799597_cont_8to1_b_565_9_alg».proof.Proof.StreamI
import proofs.«163700_g3178275799597_cont_8to1_b_565_9_alg».proof.Proof.RunCI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Eight stores of 512 whole rows at rows 3584, 3072, …, 0 (newest first), each holding its row block of ONE
    array G, read back as G, whatever the older stores and the prior contents. -/
theorem read_tiles8 {sig' : RefSig} {κ' : Kind} {sp' : Space} {n : Nat} {e : EltTy}
    (v : View sig' κ' sp' (⟨2, ![4096, n]⟩ : Shape) e) (f : v.ty.Contents (Elt F))
    (q0 q1 q2 q3 q4 q5 q6 q7 : (⟨2, ![512, n]⟩ : Shape).Idx → Elt F e)
    (inb0 : ∀ a, (![0, 0] : Fin 2 → Nat) a + (⟨2, ![512, n]⟩ : Shape).size a ≤ (⟨2, ![4096, n]⟩ : Shape).size a)
    (inb1 : ∀ a, (![512, 0] : Fin 2 → Nat) a + (⟨2, ![512, n]⟩ : Shape).size a ≤ (⟨2, ![4096, n]⟩ : Shape).size a)
    (inb2 : ∀ a, (![1024, 0] : Fin 2 → Nat) a + (⟨2, ![512, n]⟩ : Shape).size a ≤ (⟨2, ![4096, n]⟩ : Shape).size a)
    (inb3 : ∀ a, (![1536, 0] : Fin 2 → Nat) a + (⟨2, ![512, n]⟩ : Shape).size a ≤ (⟨2, ![4096, n]⟩ : Shape).size a)
    (inb4 : ∀ a, (![2048, 0] : Fin 2 → Nat) a + (⟨2, ![512, n]⟩ : Shape).size a ≤ (⟨2, ![4096, n]⟩ : Shape).size a)
    (inb5 : ∀ a, (![2560, 0] : Fin 2 → Nat) a + (⟨2, ![512, n]⟩ : Shape).size a ≤ (⟨2, ![4096, n]⟩ : Shape).size a)
    (inb6 : ∀ a, (![3072, 0] : Fin 2 → Nat) a + (⟨2, ![512, n]⟩ : Shape).size a ≤ (⟨2, ![4096, n]⟩ : Shape).size a)
    (inb7 : ∀ a, (![3584, 0] : Fin 2 → Nat) a + (⟨2, ![512, n]⟩ : Shape).size a ≤ (⟨2, ![4096, n]⟩ : Shape).size a)
    (L : List (View.Piece (Elt F) (⟨2, ![4096, n]⟩ : Shape) e)) (G : (⟨2, ![4096, n]⟩ : Shape).Idx → Elt F e)
    (h0 : q0 = rowBlock G 0) (h1 : q1 = rowBlock G 1) (h2 : q2 = rowBlock G 2) (h3 : q3 = rowBlock G 3)
    (h4 : q4 = rowBlock G 4) (h5 : q5 = rowBlock G 5) (h6 : q6 = rowBlock G 6) (h7 : q7 = rowBlock G 7) :
    v.read (Elt F) (v.writes (Elt F) f
      (⟨Rect.unit ![3584, 0] (⟨2, ![512, n]⟩ : Shape).size inb7, q7⟩ :: ⟨Rect.unit ![3072, 0] (⟨2, ![512, n]⟩ : Shape).size inb6, q6⟩
        :: ⟨Rect.unit ![2560, 0] (⟨2, ![512, n]⟩ : Shape).size inb5, q5⟩ :: ⟨Rect.unit ![2048, 0] (⟨2, ![512, n]⟩ : Shape).size inb4, q4⟩
        :: ⟨Rect.unit ![1536, 0] (⟨2, ![512, n]⟩ : Shape).size inb3, q3⟩ :: ⟨Rect.unit ![1024, 0] (⟨2, ![512, n]⟩ : Shape).size inb2, q2⟩
        :: ⟨Rect.unit ![512, 0] (⟨2, ![512, n]⟩ : Shape).size inb1, q1⟩ :: ⟨Rect.unit ![0, 0] (⟨2, ![512, n]⟩ : Shape).size inb0, q0⟩ :: L)) = G := by
  subst h0 h1 h2 h3 h4 h5 h6 h7
  funext y
  have hy := idx2_lt0 y
  have fin : ∀ (u : Fin 8) (o : Nat), o = 512 * u.val → o ≤ (y 0).val → (hh : (y 0).val < o + 512) →
      rowBlock G u (ix2 (⟨(y 0).val - o, by omega⟩ : Fin 512) (y 1 : Fin n)) = G y := by
    intro u o ho hlo hh
    subst ho
    unfold rowBlock
    refine congrArg G ?_
    funext a; match a with
    | ⟨0, _⟩ => exact Fin.ext (by show 512 * u.val + ((y 0).val - 512 * u.val) = (y 0).val; omega)
    | ⟨1, _⟩ => rfl
  by_cases c7 : 3584 ≤ (y 0).val
  · rw [RowBlocks.read_cons_rows_mem v f 3584 rfl _ _ _ y c7 (by omega)]
    exact fin 7 3584 rfl c7 (by omega)
  rw [RowBlocks.read_cons_rows_not_mem v f 3584 rfl _ _ _ y (by omega)]
  by_cases c6 : 3072 ≤ (y 0).val
  · rw [RowBlocks.read_cons_rows_mem v f 3072 rfl _ _ _ y c6 (by omega)]
    exact fin 6 3072 rfl c6 (by omega)
  rw [RowBlocks.read_cons_rows_not_mem v f 3072 rfl _ _ _ y (by omega)]
  by_cases c5 : 2560 ≤ (y 0).val
  · rw [RowBlocks.read_cons_rows_mem v f 2560 rfl _ _ _ y c5 (by omega)]
    exact fin 5 2560 rfl c5 (by omega)
  rw [RowBlocks.read_cons_rows_not_mem v f 2560 rfl _ _ _ y (by omega)]
  by_cases c4 : 2048 ≤ (y 0).val
  · rw [RowBlocks.read_cons_rows_mem v f 2048 rfl _ _ _ y c4 (by omega)]
    exact fin 4 2048 rfl c4 (by omega)
  rw [RowBlocks.read_cons_rows_not_mem v f 2048 rfl _ _ _ y (by omega)]
  by_cases c3 : 1536 ≤ (y 0).val
  · rw [RowBlocks.read_cons_rows_mem v f 1536 rfl _ _ _ y c3 (by omega)]
    exact fin 3 1536 rfl c3 (by omega)
  rw [RowBlocks.read_cons_rows_not_mem v f 1536 rfl _ _ _ y (by omega)]
  by_cases c2 : 1024 ≤ (y 0).val
  · rw [RowBlocks.read_cons_rows_mem v f 1024 rfl _ _ _ y c2 (by omega)]
    exact fin 2 1024 rfl c2 (by omega)
  rw [RowBlocks.read_cons_rows_not_mem v f 1024 rfl _ _ _ y (by omega)]
  by_cases c1 : 512 ≤ (y 0).val
  · rw [RowBlocks.read_cons_rows_mem v f 512 rfl _ _ _ y c1 (by omega)]
    exact fin 1 512 rfl c1 (by omega)
  rw [RowBlocks.read_cons_rows_not_mem v f 512 rfl _ _ _ y (by omega)]
  rw [RowBlocks.read_cons_rows_mem v f 0 rfl _ _ _ y (by omega) (by omega)]
  exact fin 0 0 rfl (by omega) (by omega)

/-- A whole-array load of what a list of stores left over junk reads the stores' reading. -/
theorem readCov_whole {sig' : RefSig} {κ' : Kind} {sp' : Space} {S : Shape} {e : EltTy} (v : View sig' κ' sp' S e)
    (L : List (View.Piece (Elt F) S e)) {off : Fin S.rank → Nat} (h : off = fun _ => 0) (inb : ∀ a, off a + S.size a ≤ S.size a) :
    v.readCov L (Rect.unit off S.size inb).toLoadRect = v.read (Elt F) (v.writes (Elt F) v.junk L) := by
  unfold View.readCov
  rw [View.readAt_eq_ld, View.ld_unit_zero h]

/-- Block u of one propagation step is the step's tile. -/
theorem rowBlock_propStep (ab : Vec F S4096x4096 .bf16) (x h : Vec F S4096x64 .f32) (u : Fin 8) :
    rowBlock (propStep ab x h) u = tileStep (rowBlock ab u) (narrowFeat h) (rowBlock x u) := by
  unfold propStep; exact rowBlock_stackRows _ u

/-- A tile of the adjacency scratch loaded at the last point: the narrowed adjacency matrix's block, on the rows below
    3584 by hypothesis and on the last block by the streaming step's store. -/
theorem abl (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) (o : Nat) (u : Fin 8) (ho : o = 512 * u.val)
    (inb : ∀ a, (![o, 0] : Fin 2 → Nat) a + S512x4096.size a ≤ S4096x4096.size a) :
    View.readAt (Elt F) arg4.view (Rect.unit (s := S4096x4096) ![o, 0] S512x4096.size inb).toLoadRect
      (arg4.view.writes (Elt F) (harg4.unread xs4) (runC.sl.H4_1 c i arg2 harg2 (rowBlock A 7))) = rowBlock (adjNarrow A) u := by
  subst hi; subst ho
  have ht7 : t.val = 7 := (hcond0_1 t).mp hc1
  have hk1 := k0_off1_eq (grid0.coords t)
  have hcv := coords_val t
  funext j
  have hj := idx2_lt0 j
  rw [View.readAt_eq_ld]
  show arg4.view.read (Elt F) _ ((Rect.unit (s := S4096x4096) ![512 * u.val, 0] S512x4096.size inb).idx j) = _
  unfold runC.sl.H4_1
  have hy0 : (((Rect.unit (s := S4096x4096) ![512 * u.val, 0] S512x4096.size inb).idx j) 0).val = 512 * u.val + 1 * (j 0).val := rfl
  have hyy : (Rect.unit (s := S4096x4096) ![512 * u.val, 0] S512x4096.size inb).idx j
      = ix2 (⟨512 * u.val + (j 0).val, by have := u.isLt; omega⟩ : Fin 4096) (j 1 : Fin 4096) := by
    funext a; apply Fin.ext
    match a with
    | ⟨0, _⟩ => show 512 * u.val + 1 * (j 0).val = 512 * u.val + (j 0).val; omega
    | ⟨1, _⟩ => show 0 + 1 * (j 1).val = (j 1).val; omega
  by_cases hu7 : u.val < 7
  · rw [RowBlocks.read_single_rows _ _ (512 * ((grid0.coords t) 0).val) hk1 _ _ _ (by rw [hy0]; omega), harg4.read_unread]
    rw [h4 _ (by rw [hy0]; omega), hyy]
    rfl
  · have hu : u.val = 7 := by have := u.isLt; omega
    have hu' : u = 7 := Fin.ext hu
    subst hu'
    rw [RowBlocks.read_cons_rows_mem _ _ (512 * ((grid0.coords t) 0).val) hk1 _ _ [] _ (by rw [hy0]; omega) (by rw [hy0]; omega)]
    rw [View.readAt_eq_ld, harg2.read_unread, View.ld_unit_zero zeros2]
    have hab : rowBlock (adjNarrow A) 7 = narrowAdj (rowBlock A 7) := by unfold adjNarrow; exact rowBlock_stackRows _ 7
    rw [hab]
    show narrowAdj (rowBlock A 7) _ = _
    refine congrArg (narrowAdj (rowBlock A 7)) ?_
    funext a; match a with
    | ⟨0, _⟩ => exact Fin.ext (by show 512 * (7 : Fin 8).val + 1 * (j 0).val - 512 * ((grid0.coords t) 0).val = (j 0).val; rw [hcv, ht7]; show 512 * 7 + 1 * (j 0).val - 512 * 7 = (j 0).val; omega)
    | ⟨1, _⟩ => exact Fin.ext (by show 0 + 1 * (j 1).val = (j 1).val; omega)

/-- A tile of the input features' staging buffer: the input features' block. -/
theorem xl (arg1 : Memref sig .tc .vmem S4096x64 .f32) (harg1 : arg1.IsWhole) (X : Vec F S4096x64 .f32) (o : Nat) (u : Fin 8)
    (ho : o = 512 * u.val) (inb : ∀ a, (![o, 0] : Fin 2 → Nat) a + S512x64.size a ≤ S4096x64.size a) :
    View.readAt (Elt F) arg1.view (Rect.unit (s := S4096x64) ![o, 0] S512x64.size inb).toLoadRect (harg1.unread X) = rowBlock X u := by
  rw [View.readAt_eq_ld, harg1.read_unread]
  exact ld_rowBlock X u (by rw [ho]) inb

set_option maxHeartbeats 1000000 in
/-- After the streaming step the wide feature scratch holds the first iterate. -/
theorem hf_1 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v28 c i arg1 harg1 arg2 harg2 arg4 arg5 harg5 arg6 harg6 X (rowBlock A 7) xs5 (narrowFeat X)) = feat X A 1 := by
  subst hi
  have ht7 : t.val = 7 := (hcond0_1 t).mp hc1
  have hk1 := k0_off1_eq (grid0.coords t)
  have hk2 := k0_off2_eq (grid0.coords t)
  have hcv := coords_val t
  unfold runC.sl.v28
  rw [View.readAt_eq_ld, View.ld_unit_zero zeros2]
  funext y
  have hy := idx2_lt0 y
  unfold runC.sl.H5_1
  by_cases hlt : (y 0).val < 3584
  · rw [RowBlocks.read_single_rows _ _ (512 * ((grid0.coords t) 0).val) hk2 _ _ y (by omega), harg5.read_unread]
    exact h5 y hlt
  · rw [RowBlocks.read_cons_rows_mem _ _ (512 * ((grid0.coords t) 0).val) hk2 _ _ [] y (by omega) (by omega)]
    have hoff2 : k0_off2 (grid0.coords t) = ![512 * (7 : Fin 8).val, 0] := by rw [hk2, hcv, ht7]; rfl
    unfold runC.sl.v11 runC.sl.H4_1
    rw [View.readCov_cons_toLoadRect]
    rw [View.readAt_eq_ld, harg2.read_unread, View.ld_unit_zero zeros2]
    rw [View.readAt_eq_ld, harg6.read_unread, View.ld_unit_zero zeros2]
    rw [View.readAt_eq_ld, harg1.read_unread, ld_rowBlock X 7 hoff2]
    show _ = propStep (adjNarrow A) X X y
    rw [propStep_apply (adjNarrow A) X X 7 y (512 * ((grid0.coords t) 0).val) (by rw [hcv, ht7]; rfl) (by omega) (by omega)]
    have hab : rowBlock (adjNarrow A) 7 = narrowAdj (rowBlock A 7) := by unfold adjNarrow; exact rowBlock_stackRows _ 7
    rw [hab]
    rfl

/-- The narrow features the propagation step number 2 reads: the 1-th iterate narrowed. -/
theorem hb_1 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v34 c i arg1 harg1 arg2 harg2 arg4 arg5 harg5 arg6 harg6 X (rowBlock A 7) xs5 (narrowFeat X)) = narrowFeat (feat X A 1) := by
  unfold runC.sl.v34 runC.sl.H6_1
  rw [View.readCov_cons_toLoadRect, hf_1 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 2. -/
theorem hf_2 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v129 c i arg1 harg1 arg2 harg2 arg4 harg4 arg5 harg5 arg6 harg6 X (rowBlock A 7) xs4 xs5 (narrowFeat X)) = feat X A 2 := by
  unfold runC.sl.v129
  rw [readCov_whole _ _ zeros2]
  unfold runC.sl.H5_9
  refine read_tiles8 _ _ _ _ _ _ _ _ _ _ _ _ _ _ _ _ _ _ _ (propStep (adjNarrow A) X (feat X A 1)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_1 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_1 c i arg1 harg1 arg2 harg2 arg3 harg3 arg4 harg4 arg5 harg5 arg6 harg6 hc0 hc1 t hi X A xs4 xs5 h4 h5]
    rfl

/-- The narrow features the propagation step number 3 reads: the 2-th iterate narrowed. -/
theorem hb_2 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v135 c i arg1 harg1 arg2 harg2 arg4 harg4 arg5 harg5 arg6 harg6 X (rowBlock A 7) xs4 xs5 (narrowFeat X)) = narrowFeat (feat X A 2) := by
  unfold runC.sl.v135 runC.sl.H6_2
  rw [View.readCov_cons_toLoadRect, hf_2 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 3. -/
theorem hf_3 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v230 c i arg1 harg1 arg2 harg2 arg4 harg4 arg5 harg5 arg6 harg6 X (rowBlock A 7) xs4 xs5 (narrowFeat X)) = feat X A 3 := by
  unfold runC.sl.v230
  rw [readCov_whole _ _ zeros2]
  unfold runC.sl.H5_17
  refine read_tiles8 _ _ _ _ _ _ _ _ _ _ _ _ _ _ _ _ _ _ _ (propStep (adjNarrow A) X (feat X A 2)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_2 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_2 c i arg1 harg1 arg2 harg2 arg3 harg3 arg4 harg4 arg5 harg5 arg6 harg6 hc0 hc1 t hi X A xs4 xs5 h4 h5]
    rfl

/-- The narrow features the propagation step number 4 reads: the 3-th iterate narrowed. -/
theorem hb_3 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v236 c i arg1 harg1 arg2 harg2 arg4 harg4 arg5 harg5 arg6 harg6 X (rowBlock A 7) xs4 xs5 (narrowFeat X)) = narrowFeat (feat X A 3) := by
  unfold runC.sl.v236 runC.sl.H6_3
  rw [View.readCov_cons_toLoadRect, hf_3 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 4. -/
theorem hf_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v331 c i arg1 harg1 arg2 harg2 arg4 harg4 arg5 harg5 arg6 harg6 X (rowBlock A 7) xs4 xs5 (narrowFeat X)) = feat X A 4 := by
  unfold runC.sl.v331
  rw [readCov_whole _ _ zeros2]
  unfold runC.sl.H5_25
  refine read_tiles8 _ _ _ _ _ _ _ _ _ _ _ _ _ _ _ _ _ _ _ (propStep (adjNarrow A) X (feat X A 3)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_3 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_3 c i arg1 harg1 arg2 harg2 arg3 harg3 arg4 harg4 arg5 harg5 arg6 harg6 hc0 hc1 t hi X A xs4 xs5 h4 h5]
    rfl

/-- The narrow features the propagation step number 5 reads: the 4-th iterate narrowed. -/
theorem hb_4 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v337 c i arg1 harg1 arg2 harg2 arg4 harg4 arg5 harg5 arg6 harg6 X (rowBlock A 7) xs4 xs5 (narrowFeat X)) = narrowFeat (feat X A 4) := by
  unfold runC.sl.v337 runC.sl.H6_4
  rw [View.readCov_cons_toLoadRect, hf_4 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 5. -/
theorem hf_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v432 c i arg1 harg1 arg2 harg2 arg4 harg4 arg5 harg5 arg6 harg6 X (rowBlock A 7) xs4 xs5 (narrowFeat X)) = feat X A 5 := by
  unfold runC.sl.v432
  rw [readCov_whole _ _ zeros2]
  unfold runC.sl.H5_33
  refine read_tiles8 _ _ _ _ _ _ _ _ _ _ _ _ _ _ _ _ _ _ _ (propStep (adjNarrow A) X (feat X A 4)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_4 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_4 c i arg1 harg1 arg2 harg2 arg3 harg3 arg4 harg4 arg5 harg5 arg6 harg6 hc0 hc1 t hi X A xs4 xs5 h4 h5]
    rfl

/-- The narrow features the propagation step number 6 reads: the 5-th iterate narrowed. -/
theorem hb_5 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v438 c i arg1 harg1 arg2 harg2 arg4 harg4 arg5 harg5 arg6 harg6 X (rowBlock A 7) xs4 xs5 (narrowFeat X)) = narrowFeat (feat X A 5) := by
  unfold runC.sl.v438 runC.sl.H6_5
  rw [View.readCov_cons_toLoadRect, hf_5 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 6. -/
theorem hf_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v533 c i arg1 harg1 arg2 harg2 arg4 harg4 arg5 harg5 arg6 harg6 X (rowBlock A 7) xs4 xs5 (narrowFeat X)) = feat X A 6 := by
  unfold runC.sl.v533
  rw [readCov_whole _ _ zeros2]
  unfold runC.sl.H5_41
  refine read_tiles8 _ _ _ _ _ _ _ _ _ _ _ _ _ _ _ _ _ _ _ (propStep (adjNarrow A) X (feat X A 5)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_5 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_5 c i arg1 harg1 arg2 harg2 arg3 harg3 arg4 harg4 arg5 harg5 arg6 harg6 hc0 hc1 t hi X A xs4 xs5 h4 h5]
    rfl

/-- The narrow features the propagation step number 7 reads: the 6-th iterate narrowed. -/
theorem hb_6 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v539 c i arg1 harg1 arg2 harg2 arg4 harg4 arg5 harg5 arg6 harg6 X (rowBlock A 7) xs4 xs5 (narrowFeat X)) = narrowFeat (feat X A 6) := by
  unfold runC.sl.v539 runC.sl.H6_6
  rw [View.readCov_cons_toLoadRect, hf_6 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 7. -/
theorem hf_7 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v634 c i arg1 harg1 arg2 harg2 arg4 harg4 arg5 harg5 arg6 harg6 X (rowBlock A 7) xs4 xs5 (narrowFeat X)) = feat X A 7 := by
  unfold runC.sl.v634
  rw [readCov_whole _ _ zeros2]
  unfold runC.sl.H5_49
  refine read_tiles8 _ _ _ _ _ _ _ _ _ _ _ _ _ _ _ _ _ _ _ (propStep (adjNarrow A) X (feat X A 6)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_6 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_6 c i arg1 harg1 arg2 harg2 arg3 harg3 arg4 harg4 arg5 harg5 arg6 harg6 hc0 hc1 t hi X A xs4 xs5 h4 h5]
    rfl

/-- The narrow features the propagation step number 8 reads: the 7-th iterate narrowed. -/
theorem hb_7 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v640 c i arg1 harg1 arg2 harg2 arg4 harg4 arg5 harg5 arg6 harg6 X (rowBlock A 7) xs4 xs5 (narrowFeat X)) = narrowFeat (feat X A 7) := by
  unfold runC.sl.v640 runC.sl.H6_7
  rw [View.readCov_cons_toLoadRect, hf_7 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 8. -/
theorem hf_8 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v735 c i arg1 harg1 arg2 harg2 arg4 harg4 arg5 harg5 arg6 harg6 X (rowBlock A 7) xs4 xs5 (narrowFeat X)) = feat X A 8 := by
  unfold runC.sl.v735
  rw [readCov_whole _ _ zeros2]
  unfold runC.sl.H5_57
  refine read_tiles8 _ _ _ _ _ _ _ _ _ _ _ _ _ _ _ _ _ _ _ (propStep (adjNarrow A) X (feat X A 7)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_7 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_7 c i arg1 harg1 arg2 harg2 arg3 harg3 arg4 harg4 arg5 harg5 arg6 harg6 hc0 hc1 t hi X A xs4 xs5 h4 h5]
    rfl

/-- The narrow features the propagation step number 9 reads: the 8-th iterate narrowed. -/
theorem hb_8 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v741 c i arg1 harg1 arg2 harg2 arg4 harg4 arg5 harg5 arg6 harg6 X (rowBlock A 7) xs4 xs5 (narrowFeat X)) = narrowFeat (feat X A 8) := by
  unfold runC.sl.v741 runC.sl.H6_8
  rw [View.readCov_cons_toLoadRect, hf_8 c i arg1 harg1 arg2 harg2 arg3 harg3 arg4 harg4 arg5 harg5 arg6 harg6 hc0 hc1 t hi X A xs4 xs5 h4 h5]
  rfl

set_option maxHeartbeats 2000000 in
/-- After its eight tiles the wide feature scratch holds iterate 9. -/
theorem hf_9 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v836 c i arg1 harg1 arg2 harg2 arg4 harg4 arg5 harg5 arg6 harg6 X (rowBlock A 7) xs4 xs5 (narrowFeat X)) = feat X A 9 := by
  unfold runC.sl.v836
  rw [readCov_whole _ _ zeros2]
  unfold runC.sl.H5_65
  refine read_tiles8 _ _ _ _ _ _ _ _ _ _ _ _ _ _ _ _ _ _ _ (propStep (adjNarrow A) X (feat X A 8)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_8 c i arg1 harg1 arg2 harg2 arg3 harg3 arg4 harg4 arg5 harg5 arg6 harg6 hc0 hc1 t hi X A xs4 xs5 h4 h5]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_8 c i arg1 harg1 arg2 harg2 arg3 harg3 arg4 harg4 arg5 harg5 arg6 harg6 hc0 hc1 t hi X A xs4 xs5 h4 h5]
    rfl

/-- The narrow features the last propagation step reads: the ninth iterate narrowed. -/
theorem hb_9 (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y) : (runC.sl.v842 c i arg1 harg1 arg2 harg2 arg4 harg4 arg5 harg5 arg6 harg6 X (rowBlock A 7) xs4 xs5 (narrowFeat X)) = narrowFeat (feat X A 9) := by
  unfold runC.sl.v842 runC.sl.H6_9
  rw [View.readCov_cons_toLoadRect]
  simp only [runC.sl.r_27]
  rw [hf_9 c i arg1 harg1 arg2 harg2 arg3 harg3 arg4 harg4 arg5 harg5 arg6 harg6 hc0 hc1 t hi X A xs4 xs5 h4 h5]
  rfl

set_option maxHeartbeats 2000000 in
/-- The result's buffer after the last point: the tenth iterate, through any view over any prior contents. -/
theorem tail_out (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i) (t : Fin cfg0.N) (hi : i = grid0.coords t)
    (X : Vec F S4096x64 .f32) (A : Vec F S4096x4096 .f32) (xs4 : Vec F S4096x4096 .bf16) (xs5 : Vec F S4096x64 .f32)
    (h4 : ∀ y : S4096x4096.Idx, (y 0).val < 3584 → xs4 y = adjNarrow A y)
    (h5 : ∀ y : S4096x64.Idx, (y 0).val < 3584 → xs5 y = feat X A 1 y)
    {sig' : RefSig} {κ' : Kind} {sp' : Space} (v : View sig' κ' sp' S4096x64 .f32) (f : v.ty.Contents (Elt F)) :
    v.read (Elt F) (v.writes (Elt F) f (runC c i arg1 harg1 arg2 harg2 arg3 harg3 arg4 harg4 arg5 harg5 arg6 harg6 hc0 hc1 X (rowBlock A 7) xs4 xs5 (narrowFeat X)).1) = feat X A 10 := by
  unfold runC; dsimp only
  refine read_tiles8 v f _ _ _ _ _ _ _ _ _ _ _ _ _ _ _ _ _ (propStep (adjNarrow A) X (feat X A 9)) ?_ ?_ ?_ ?_ ?_ ?_ ?_ ?_
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 0 0 rfl, xl arg1 harg1 X 0 0 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 512 1 rfl, xl arg1 harg1 X 512 1 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1024 2 rfl, xl arg1 harg1 X 1024 2 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 1536 3 rfl, xl arg1 harg1 X 1536 3 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2048 4 rfl, xl arg1 harg1 X 2048 4 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 2560 5 rfl, xl arg1 harg1 X 2560 5 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3072 6 rfl, xl arg1 harg1 X 3072 6 rfl, hb_9 c i arg1 harg1 arg2 harg2 arg3 harg3 arg4 harg4 arg5 harg5 arg6 harg6 hc0 hc1 t hi X A xs4 xs5 h4 h5]
    simp only [tileStep, k0_pay3, shapeCast_self]
    rfl
  · rw [rowBlock_propStep]
    try simp only [runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_4, runC.sl.r_5, runC.sl.r_6, runC.sl.r_7, runC.sl.r_8, runC.sl.r_9]
    rw [abl c i arg1 harg1 arg2 harg2 arg3 harg3 arg4 harg4 arg5 harg5 arg6 harg6 hc0 hc1 t hi X A xs4 xs5 h4 h5 3584 7 rfl, xl arg1 harg1 X 3584 7 rfl, hb_9 c i arg1 harg1 arg2 harg2 arg3 harg3 arg4 harg4 arg5 harg5 arg6 harg6 hc0 hc1 t hi X A xs4 xs5 h4 h5]
    simp only [tileStep, k0_pay3, shapeCast_self]
    rfl

end Cert.KernelIdeal.Gen

end
-- ==== Proof.OpenI.lean ====
/-
  What the three runs' stores mean. At a point t < 7 the streaming step writes block t of the narrowed
  adjacency matrix and block t of the first propagation step, so that after it both scratch arrays agree
  with those two arrays on every row below 512·(t+1); at point 0 it also fills the narrow feature scratch.
  At point 7, from scratch arrays that agree on the rows below 3584, the streaming step completes them and
  the nine remaining steps, each reading what the step before stored block by block, leave the tenth
  iterate in the result's buffer — whatever the rows from 3584 on held before.
-/
import proofs.«163700_g3178275799597_cont_8to1_b_565_9_alg».proof.Proof.SpecI
import proofs.«163700_g3178275799597_cont_8to1_b_565_9_alg».proof.Proof.RunAI
import proofs.«163700_g3178275799597_cont_8to1_b_565_9_alg».proof.Proof.RunBI
import proofs.«163700_g3178275799597_cont_8to1_b_565_9_alg».proof.Proof.RunCI
import proofs.«163700_g3178275799597_cont_8to1_b_565_9_alg».proof.Proof.StreamI
import proofs.«163700_g3178275799597_cont_8to1_b_565_9_alg».proof.Proof.TailI
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The adjacency scratch agrees with the narrowed adjacency matrix on the rows below 512·n. -/
def agree4 (A : Vec F S4096x4096 .f32) (n : ℕ) (d : Vec F S4096x4096 .bf16) : Prop :=
  ∀ y : S4096x4096.Idx, (y 0).val < 512 * n → d y = adjNarrow A y
/-- The wide feature scratch agrees with the first propagation step on the rows below 512·n. -/
def agree5 (X : Vec F S4096x64 .f32) (A : Vec F S4096x4096 .f32) (n : ℕ) (d : Vec F S4096x64 .f32) : Prop :=
  ∀ y : S4096x64.Idx, (y 0).val < 512 * n → d y = feat X A 1 y

/-- The first point: block 0 of both arrays written, the narrow features filled. -/
theorem streamA_agree (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32) (xs6 : Vec F S4096x64 .bf16) :
    agree4 A (t.val + 1) (arg4.view.read (Elt F) (arg4.view.writes (Elt F) (harg4.unread xs4) (runA c i arg1 harg1 arg2 harg2 arg3 harg3 arg4 harg4 arg5 harg5 arg6 harg6 hc0 hc1 X (rowBlock A u) xs4 xs5 xs6).1))
    ∧ agree5 X A (t.val + 1) (arg5.view.read (Elt F) (arg5.view.writes (Elt F) (harg5.unread xs5) (runA c i arg1 harg1 arg2 harg2 arg3 harg3 arg4 harg4 arg5 harg5 arg6 harg6 hc0 hc1 X (rowBlock A u) xs4 xs5 xs6).2.1))
    ∧ arg6.view.read (Elt F) (arg6.view.writes (Elt F) (harg6.unread xs6) (runA c i arg1 harg1 arg2 harg2 arg3 harg3 arg4 harg4 arg5 harg5 arg6 harg6 hc0 hc1 X (rowBlock A u) xs4 xs5 xs6).2.2.1) = narrowFeat X := by
  exact ⟨fun y hy => streamA_4 c i arg1 harg1 arg2 harg2 arg3 harg3 arg4 harg4 arg5 harg5 arg6 harg6 hc0 hc1 t hi u hu X A xs4 xs5 xs6 y hy,
    fun y hy => streamA_5 c i arg1 harg1 arg2 harg2 arg3 harg3 arg4 harg4 arg5 harg5 arg6 harg6 hc0 hc1 t hi u hu X A xs4 xs5 xs6 y hy,
    streamA_6 c i arg1 harg1 arg2 harg2 arg3 harg3 arg4 harg4 arg5 harg5 arg6 harg6 hc0 hc1 X (rowBlock A u) xs4 xs5 xs6⟩

/-- A middle point t: block t of both arrays written over arrays agreeing below 512·t. -/
theorem streamB_agree (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : ¬cond0_1 i)
    (t : Fin cfg0.N) (hi : i = grid0.coords t) (u : Fin 8) (hu : u.val = t.val)
    (X : Vec F S4096x64 .f32) (A : Vec F S4096x4096 .f32) (xs4 : Vec F S4096x4096 .bf16) (xs5 : Vec F S4096x64 .f32)
    (h4 : agree4 A t.val xs4) (h5 : agree5 X A t.val xs5) :
    agree4 A (t.val + 1) (arg4.view.read (Elt F) (arg4.view.writes (Elt F) (harg4.unread xs4) (runB c i arg1 harg1 arg2 harg2 arg3 harg3 arg4 harg4 arg5 harg5 arg6 harg6 hc0 hc1 X (rowBlock A u) xs4 xs5 (narrowFeat X)).1))
    ∧ agree5 X A (t.val + 1) (arg5.view.read (Elt F) (arg5.view.writes (Elt F) (harg5.unread xs5) (runB c i arg1 harg1 arg2 harg2 arg3 harg3 arg4 harg4 arg5 harg5 arg6 harg6 hc0 hc1 X (rowBlock A u) xs4 xs5 (narrowFeat X)).2.1)) := by
  exact ⟨fun y hy => streamB_4 c i arg1 harg1 arg2 harg2 arg3 harg3 arg4 harg4 arg5 harg5 arg6 harg6 hc0 hc1 t hi u hu X A xs4 xs5 (narrowFeat X) h4 y hy,
    fun y hy => streamB_5 c i arg1 harg1 arg2 harg2 arg3 harg3 arg4 harg4 arg5 harg5 arg6 harg6 hc0 hc1 t hi u hu X A xs4 xs5 h5 y hy⟩

/-- The last point: from arrays agreeing below row 3584 the result's buffer ends at the tenth iterate, read
    through any view of the shape over any prior contents. -/
theorem tailC_out (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬cond0_0 i) (hc1 : cond0_1 i)
    (t : Fin cfg0.N) (hi : i = grid0.coords t)
    (X : Vec F S4096x64 .f32) (A : Vec F S4096x4096 .f32) (xs4 : Vec F S4096x4096 .bf16) (xs5 : Vec F S4096x64 .f32)
    (h4 : agree4 A 7 xs4) (h5 : agree5 X A 7 xs5)
    {sig' : RefSig} {κ' : Kind} {sp' : Space} (v : View sig' κ' sp' S4096x64 .f32) (f : v.ty.Contents (Elt F)) :
    v.read (Elt F) (v.writes (Elt F) f (runC c i arg1 harg1 arg2 harg2 arg3 harg3 arg4 harg4 arg5 harg5 arg6 harg6 hc0 hc1 X (rowBlock A 7) xs4 xs5 (narrowFeat X)).1) = feat X A 10 := by
  exact tail_out c i arg1 harg1 arg2 harg2 arg3 harg3 arg4 harg4 arg5 harg5 arg6 harg6 hc0 hc1 t hi X A xs4 xs5 (fun y hy => h4 y (by omega)) (fun y hy => h5 y (by omega)) v f

end Cert.KernelIdeal.Gen

end
-- ==== Proof.FrameI.lean ====
/-
  The frame of the propagation kernel's launch and the value its result array ends at.
  The three scratch buffers are carried from point to point. After a point t < 7 the invariant holds the
  adjacency scratch and the wide feature scratch at SOME contents that agree with the narrowed adjacency
  matrix and with the first propagation step on the rows below 512·(t+1), and the narrow feature scratch at
  the narrowed input features; before the first point and after the last it holds all three at anything.
  The result window is idle and not written back at the points 0 … 6; at point 7 the body leaves the tenth
  iterate in its buffer, and the one write-back, whose block is the whole array, puts it into the result.
-/
import proofs.«163700_g3178275799597_cont_8to1_b_565_9_alg».proof.Proof.OpenI
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays and the input windows' blocks -/

/-- The input features as the region finds them. -/
abbrev X (c : Dev nD) : Vec F S4096x64 .f32 := V m c (Pipeline.arrRef spec0 0)
/-- The adjacency matrix as the region finds it. -/
abbrev A (c : Dev nD) : Vec F S4096x4096 .f32 := V m c (Pipeline.arrRef spec0 1)

/-- The printed index maps over the grid: window 0's block index is (0, 0) at every point, window 1's is
    (t, 0) at point t, window 2's is (0, 0) at every point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Window 0's block is the whole feature array at every point. -/
theorem iblk0_eq (c : Dev nD) (t : Fin cfg0.N) : (iblk m c 0 t : Vec F S4096x64 .f32) = X m c := by
  obtain ⟨e0, e1, -, -, -, -⟩ := idx_facts t
  funext x
  unfold iblk
  rw [View.read_apply]
  show V m c main_arg0 (((cfg0.win 0).blk t).view.emb x) = V m c main_arg0 x
  refine congrArg (V m c main_arg0) ?_
  funext a; apply Fin.ext
  match a with
  | ⟨0, _⟩ => show win0_0.index t (0 : Fin 2) * 4096 + 1 * (x 0).val = (x 0).val; rw [e0]; omega
  | ⟨1, _⟩ => show win0_0.index t (1 : Fin 2) * 64 + 1 * (x 1).val = (x 1).val; rw [e1]; omega

/-- Window 1's block at point t is rows 512·t … 512·t + 511 of the adjacency matrix. -/
theorem iblk1_eq (c : Dev nD) (t : Fin cfg0.N) (u : Fin 8) (hu : u.val = t.val) :
    (iblk m c 1 t : Vec F S512x4096 .f32) = rowBlock (A m c) u := by
  obtain ⟨-, -, e2, e3, -, -⟩ := idx_facts t
  funext x
  unfold iblk rowBlock
  rw [View.read_apply]
  show V m c main_arg1 (((cfg0.win 1).blk t).view.emb x) = V m c main_arg1 _
  refine congrArg (V m c main_arg1) ?_
  funext a; apply Fin.ext
  match a with
  | ⟨0, _⟩ => show win0_1.index t (0 : Fin 2) * 512 + 1 * (x 0).val = 512 * u.val + (x 0).val; rw [e2, hu]; omega
  | ⟨1, _⟩ => show win0_1.index t (1 : Fin 2) * 4096 + 1 * (x 1).val = (x 1).val; rw [e3]; omega

/-! ## The invariant carried between points, and the proof data -/

/-- What the invariant holds before point n for 0 < n < 8: the adjacency scratch and the wide feature scratch
    at some contents agreeing with the narrowed adjacency matrix and with the first propagation step on the
    rows below 512·n, the narrow feature scratch at the narrowed input features, the generator register at
    some state. -/
def PhiMid (c : Dev nD) (n : ℕ) : sProp 𝕄 :=
  iprop((∃ (d4 : Vec F S4096x4096 .bf16) (d5 : Vec F S4096x64 .f32), ⌜agree4 (A m c) n d4⌝ ∗ ⌜agree5 (X m c) (A m c) n d5⌝
      ∗ owns (c : Thread nD τ) scM0_0 fullShare d4 ∗ owns (c : Thread nD τ) scM0_1 fullShare d5
      ∗ owns (c : Thread nD τ) scM0_2 fullShare (narrowFeat (X m c))) ∗ (∃ r, prngReg c r))

/-- The region invariant before position n: between the first point and the last the carried scratch as
    `PhiMid` states it; before the first point and after the last every scratch at anything. -/
def PhiS (c : Dev nD) (n : ℕ) : sProp 𝕄 :=
  if 0 < n ∧ n < 8 then PhiMid m c n else Pipeline.ΦA spec0 c

theorem PhiS_edge (c : Dev nD) (n : ℕ) (h : n = 0 ∨ 8 ≤ n) : PhiS m c n = Pipeline.ΦA spec0 c :=
  if_neg (by omega)

theorem PhiS_mid (c : Dev nD) (n : ℕ) (h0 : 0 < n) (h8 : n < 8) : PhiS m c n = PhiMid m c n :=
  if_pos ⟨h0, h8⟩

/-- The proof data of the one pipeline on core c: the arrays as the region finds them; after the body at
    point t each input's buffer at its block and the result's buffer at the tenth iterate (consulted at
    point 7 only, the one point where the window is live); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => feat (X m c) (A m c) 10
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a position. -/
theorem Phi_eq (c : Dev nD) (t : Fin (cfg0.N + 1)) : (dats m 0 c).Φ t = PhiS m c t.val := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = feat (X m c) (A m c) 10 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The two input windows are live at every point: the body leaves their buffers at their blocks. -/
theorem leaves0_0 (c : Dev nD) (t : Fin cfg0.N) :
    (dats m 0 c).leavesExact 0 t = owns (c : Thread nD τ) (ms0_0 t) fullShare (X m c) := by
  unfold Dat.leavesExact; rw [liveAt0_0 t, after0_0, iblk0_eq]
theorem leaves0_1 (c : Dev nD) (t : Fin cfg0.N) (u : Fin 8) (hu : u.val = t.val) :
    (dats m 0 c).leavesExact 1 t = owns (c : Thread nD τ) (ms0_1 t) fullShare (rowBlock (A m c) u) := by
  unfold Dat.leavesExact; rw [liveAt0_1 t, after0_1, iblk1_eq m c t u hu]
/-- The result window at point 7: the body leaves the tenth iterate in its buffer. -/
theorem leaves0_2_last (c : Dev nD) (t : Fin cfg0.N) (h : cond0_1 (grid0.coords t)) :
    (dats m 0 c).leavesExact 2 t = owns (c : Thread nD τ) (ms0_2 t) fullShare (feat (X m c) (A m c) 10) := by
  unfold Dat.leavesExact; rw [liveAt0_2 t h, after0_2]

set_option maxHeartbeats 4800000 in
/-- The body at any point. The inputs' memrefs hold their blocks; the closed forms say which of the three
    cases the point is in; the invariant hands the body the scratch buffers — at anything at the first point,
    afterwards at contents agreeing with the specification on the rows written so far — and takes them back
    agreeing on 512 more rows, or, after the last point, at anything; at the last point the result's buffer
    is left at the tenth iterate; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before0_0, before0_1]
  rw [iblk0_eq, iblk1_eq m c t ⟨t.val, hN⟩ rfl, leaves0_0, leaves0_1 m c t ⟨t.val, hN⟩ rfl]
  rw [show (dats m 0 c).owesAt () t.succ = (dats m 0 c).owesAt () t.castSucc from rfl]
  rw [Phi_eq, Phi_eq, Fin.coe_castSucc, Fin.val_succ]
  by_cases h0 : t.val = 0
  · -- the first point
    have hc0 : cond0_0 (grid0.coords t) := (hcond0_0 t).mpr h0
    have hc1 : ¬cond0_1 (grid0.coords t) := fun h => absurd ((hcond0_1 t).mp h) (by omega)
    rw [Dat.leavesExact_idle (dats m 0 c) 2 t (idleAt0_2 t hc1) (noFlush0_2 t hc1)]
    rw [PhiS_edge m c _ (Or.inl h0), PhiA0_eq, PhiS_mid m c _ (by omega) (by omega)]
    unfold PhiMid
    iintro ⟨⟨⟨⟨%d4, HS0⟩, ⟨%d5, HS1⟩, ⟨%d6, HS2⟩⟩, Hg⟩, Ho, ⟨%e0, H0⟩, ⟨%e1, H1⟩, ⟨%e2, H2⟩⟩
    iapply ((runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) ⟨t.val, hN⟩) d4 d5 d6).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    have hA := streamA_agree c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl ⟨t.val, hN⟩ rfl (X m c) (A m c) d4 d5 d6
    isplitl [HS0 HS1 HS2 Hg]
    · isplitr [Hg]
      · iexists _, _
        isplitr; · ipureintro; exact hA.1
        isplitr; · ipureintro; exact hA.2.1
        isplitl [HS0]; · iapply (owns_intro (c : Thread nD τ) scM0_0 fullShare _); iexact HS0
        isplitl [HS1]; · iapply (owns_intro (c : Thread nD τ) scM0_1 fullShare _); iexact HS1
        unfold owns; iexists _; isplitr
        · ipureintro; exact hA.2.2
        · iexact HS2
      · iexact Hg
    isplitl [Ho]; · iexact Ho
    isplitl [H0]; · iexact H0
    isplitl [H1]; · iexact H1
    iexists _; iexact H2
  · by_cases h7 : t.val = 7
    · -- the last point
      have hc0 : ¬cond0_0 (grid0.coords t) := fun h => h0 ((hcond0_0 t).mp h)
      have hc1 : cond0_1 (grid0.coords t) := (hcond0_1 t).mpr h7
      rw [leaves0_2_last m c t hc1]
      rw [PhiS_mid m c _ (by omega) (by omega), PhiS_edge m c _ (Or.inr (by omega)), PhiA0_eq]
      unfold PhiMid
      rw [show rowBlock (A m c) ⟨t.val, hN⟩ = rowBlock (A m c) 7 from congrArg (rowBlock (A m c)) (Fin.ext h7)]
      iintro ⟨⟨⟨%d4, %d5, %h4, %h5, HS0, HS1, HS2⟩, Hg⟩, Ho, ⟨%e0, H0⟩, ⟨%e1, H1⟩, ⟨%e2, H2⟩⟩
      rw [h7] at h4 h5
      iapply ((runC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) 7) d4 d5 (narrowFeat (X m c))).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%f3, H2⟩, HS0, HS1, HS2⟩
      isplitl [HS0 HS1 HS2 Hg]
      · isplitr [Hg]
        · isplitl [HS0]; · iexists _; iapply (owns_intro (c : Thread nD τ) scM0_0 fullShare _); iexact HS0
          isplitl [HS1]; · iexists _; iapply (owns_intro (c : Thread nD τ) scM0_1 fullShare _); iexact HS1
          iexists _; iapply (owns_intro (c : Thread nD τ) scM0_2 fullShare _); iexact HS2
        · iexact Hg
      isplitl [Ho]; · iexact Ho
      isplitl [H0]; · iexact H0
      isplitl [H1]; · iexact H1
      unfold owns; iexists _; isplitr
      · ipureintro
        exact tailC_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl (X m c) (A m c) d4 d5 h4 h5 (ms0_2 t).view f3
      · iexact H2
    · -- a middle point
      have hc0 : ¬cond0_0 (grid0.coords t) := fun h => h0 ((hcond0_0 t).mp h)
      have hc1 : ¬cond0_1 (grid0.coords t) := fun h => h7 ((hcond0_1 t).mp h)
      rw [Dat.leavesExact_idle (dats m 0 c) 2 t (idleAt0_2 t hc1) (noFlush0_2 t hc1)]
      rw [PhiS_mid m c _ (by omega) (by omega), PhiS_mid m c _ (by omega) (by omega)]
      unfold PhiMid
      iintro ⟨⟨⟨%d4, %d5, %h4, %h5, HS0, HS1, HS2⟩, Hg⟩, Ho, ⟨%e0, H0⟩, ⟨%e1, H1⟩, ⟨%e2, H2⟩⟩
      iapply ((runB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (X m c) (rowBlock (A m c) ⟨t.val, hN⟩) d4 d5 (narrowFeat (X m c))).2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      have hB := streamB_agree c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 t rfl ⟨t.val, hN⟩ rfl (X m c) (A m c) d4 d5 h4 h5
      isplitl [HS0 HS1 HS2 Hg]
      · isplitr [Hg]
        · iexists _, _
          isplitr; · ipureintro; exact hB.1
          isplitr; · ipureintro; exact hB.2
          isplitl [HS0]; · iapply (owns_intro (c : Thread nD τ) scM0_0 fullShare _); iexact HS0
          isplitl [HS1]; · iapply (owns_intro (c : Thread nD τ) scM0_1 fullShare _); iexact HS1
          iexact HS2
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [Phi_eq, PhiS_edge m c _ (Or.inl (Fin.val_zero _))]

/-- After the last point the invariant is the launch's again: every scratch at anything. -/
theorem hout (c : Dev nD) : (dats m 0 c).Φ (Fin.last cfg0.N) ⊢ Pipeline.ΦA spec0 c := by
  rw [Phi_eq, PhiS_edge m c _ (Or.inr (by rw [Fin.val_last]; exact le_of_eq N_0.symm))]

/-! ## The run and the frame -/

set_option backward.isDefEq.respectTransparency.types false in
/-- At the compiled mesh, for any values, from any memory with zero counters: every weakly fair execution
    of @main on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The value the result array ends at -/

/-- What a write-back of the result window writes is the tenth iterate read through the window's block
    (the block is the whole array, at index (0, 0)). -/
theorem flushed_eq (c : Dev nD) (t : Fin cfg0.N) :
    (dats m 0 c).flushed 2 t = ((cfg0.win 2).blk t).view.read (Elt F) (feat (X m c) (A m c) 10) := by
  obtain ⟨-, -, -, -, e4, e5⟩ := idx_facts t
  show (cfg0.win 2).cut (grid0.coords t) ((dats m 0 c).after 2 t) = _
  rw [after0_2]
  funext y
  rw [View.read_apply]
  show feat (X m c) (A m c) 10 y = feat (X m c) (A m c) 10 (((cfg0.win 2).blk t).view.emb y)
  refine congrArg (feat (X m c) (A m c) 10) ?_
  funext a; apply Fin.ext
  match a with
  | ⟨0, _⟩ => show (y 0).val = win0_2.index t (0 : Fin 2) * 4096 + 1 * (y 0).val; rw [e4]; omega
  | ⟨1, _⟩ => show (y 1).val = win0_2.index t (1 : Fin 2) * 64 + 1 * (y 1).val; rw [e5]; omega

/-- An index of the result array is in point t's block iff each coordinate is in the block's range on its axis. -/
theorem mem_blk2 (t : Fin cfg0.N) (i : S4096x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v0).slice (win0_2.rect t)).set ↔ _
  rw [View.set_slice_whole, Rect.mem_set_unit]
  exact Iff.rfl

/-- Every index of the result array lies in the block of point 7, the one point that writes back. -/
theorem cover2 (i : S4096x64.Idx) :
    ∃ t : Fin cfg0.N, (cfg0.win 2).flush t = true ∧ i ∈ ((cfg0.win 2).blk t).view.set := by
  refine ⟨t0_7, (flush0_2 t0_7).mpr rfl, ?_⟩
  obtain ⟨-, -, -, -, e4, e5⟩ := idx_facts t0_7
  rw [mem_blk2]
  intro a
  match a with
  | ⟨0, _⟩ => show win0_2.index t0_7 (0 : Fin 2) * 4096 ≤ (i 0).val ∧ (i 0).val < win0_2.index t0_7 (0 : Fin 2) * 4096 + 4096; have := idx2_lt0 i; rw [e4]; omega
  | ⟨1, _⟩ => show win0_2.index t0_7 (1 : Fin 2) * 64 ≤ (i 1).val ∧ (i 1).val < win0_2.index t0_7 (1 : Fin 2) * 64 + 64; have := idx2_lt1 i; rw [e5]; omega

/-- So the result array ends holding the tenth iterate. -/
theorem final_out (c : Dev nD) : (dats m 0 c).arrAt 2 cfg0.N = feat (X m c) (A m c) 10 :=
  (dats m 0 c).arrAt_eq_of_cover 2 (feat (X m c) (A m c) 10) (fun t _ => flushed_eq m c t) cover2

/-- The run, read: the result array at ten propagation steps from the input features, both arguments as launched. -/
theorem run_value : θ_run defs (onTc (τ := τ) (main (F := F))) ⟨m, fun _ => 0, ρ⟩ (fun r => ∀ c : Dev nD,
      r.2.mem ((c.tc : Thread nD τ).loc main_v0) = feat (X m c) (A m c) 10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Gen

end
-- ==== Proof.StepIdealI.lean ====
/-
  One propagation step of the kernel's specification read at an entry, at the exact instance.
  There a narrowing format change is the identity, so the narrowed adjacency matrix and the narrowed
  features are the arrays themselves, and the product of a 512-row block with the features, accumulated
  into zero, is at an entry the sum over the 4096 columns of the products. Row r of the stack of eight
  blocks is row r % 512 of block r / 512, and 512 · (r / 512) + r % 512 = r; so entry (r, j) of a step is
  0.9 · Σₖ A(r,k) · h(k,j) + 0.1 · X(r,j), with both constants kept as their words.
-/
import proofs.«163700_g3178275799597_cont_8to1_b_565_9_alg».proof.Proof.SpecI
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.KernelIdeal Cert.KernelIdeal.Gen

/-- The block product's dimension numbers: rows of the left operand against columns of the right. -/
abbrev DK : DotDims Cert.KernelIdeal.S512x4096 Cert.KernelIdeal.S4096x64 Cert.KernelIdeal.S512x64 :=
  Cert.KernelIdeal.dot_S512x4096_S4096x64_S512x64_1_0_0_1_n_n

/-- The left operand's row at output entry (p, q) is p. -/
theorem DK_lhs0 (i : Cert.KernelIdeal.S512x64.Idx) (q : DK.contr.Idx) : (DK.lhsIdx i q 0).val = (i 0).val := by
  unfold DotDims.lhsIdx
  rw [dif_neg (show ¬(0 : Fin Cert.KernelIdeal.S512x4096.rank) ∈ DK.lhsBatch by decide),
    dif_pos (show (0 : Fin Cert.KernelIdeal.S512x4096.rank) ∈ DK.lhsNonContracting by decide)]
  rfl
/-- Its column is the contraction coordinate. -/
theorem DK_lhs1 (i : Cert.KernelIdeal.S512x64.Idx) (q : DK.contr.Idx) : (DK.lhsIdx i q 1).val = (q ⟨0, by decide⟩).val :=
  DK.lhsIdx_val_of_single rfl i q
/-- The right operand's row is the contraction coordinate. -/
theorem DK_rhs0 (i : Cert.KernelIdeal.S512x64.Idx) (q : DK.contr.Idx) : (DK.rhsIdx i q 0).val = (q ⟨0, by decide⟩).val :=
  DK.rhsIdx_val_of_single rfl i q
/-- Its column at output entry (p, q) is q. -/
theorem DK_rhs1 (i : Cert.KernelIdeal.S512x64.Idx) (q : DK.contr.Idx) : (DK.rhsIdx i q 1).val = (i 1).val := by
  unfold DotDims.rhsIdx
  rw [dif_neg (show ¬(1 : Fin Cert.KernelIdeal.S4096x64.rank) ∈ DK.rhsBatch by decide),
    dif_pos (show (1 : Fin Cert.KernelIdeal.S4096x64.rank) ∈ DK.rhsNonContracting by decide)]
  rfl

/-- A block product accumulated into zero, at entry (p, q): Σₖ a(p,k) · b(k,q). -/
theorem blockProduct_apply (a : FVec Ideal Cert.KernelIdeal.S512x4096 .bf16) (b : FVec Ideal Cert.KernelIdeal.S4096x64 .bf16)
    (p : Fin 512) (q : Fin 64) :
    FloatOps.matmul DK none a b (constant (F := Ideal) Cert.KernelIdeal.S512x64 .f32 0x00000000#32) (ix2 p q)
      = ∑ k : Fin 4096, a (ix2 p k) * b (ix2 k q) := by
  rw [Ideal.matmul_constant_zero_apply, ← Equiv.sum_comp (contrEquiv1 DK 4096 rfl rfl).symm]
  refine Finset.sum_congr rfl fun k _ => ?_
  have hk := contrEquiv1_symm_val DK 4096 rfl rfl k
  have el : DK.lhsIdx (ix2 p q) ((contrEquiv1 DK 4096 rfl rfl).symm k) = ix2 p k := funext fun d => Fin.ext (by
    match d with
    | ⟨0, _⟩ => exact DK_lhs0 _ _
    | ⟨1, _⟩ => exact (DK_lhs1 _ _).trans hk)
  have er : DK.rhsIdx (ix2 p q) ((contrEquiv1 DK 4096 rfl rfl).symm k) = ix2 k q := funext fun d => Fin.ext (by
    match d with
    | ⟨0, _⟩ => exact (DK_rhs0 _ _).trans hk
    | ⟨1, _⟩ => exact DK_rhs1 _ _)
  rw [el, er]

/-- One block of one step at entry (p, q): 0.9 · Σₖ a(p,k) · b(k,q) + 0.1 · x(p,q). -/
theorem tileStep_apply (a : Vec Ideal Cert.KernelIdeal.S512x4096 .bf16) (b : Vec Ideal Cert.KernelIdeal.S4096x64 .bf16)
    (xt : Vec Ideal Cert.KernelIdeal.S512x64 .f32) (p : Fin 512) (q : Fin 64) :
    tileStep (F := Ideal) a b xt (ix2 p q)
      = Ideal.ofBits .f32 0x3F666666#32 * (∑ k : Fin 4096, a (ix2 p k) * b (ix2 k q))
        + Ideal.ofBits .f32 0x3DCCCCCD#32 * xt (ix2 p q) := by
  unfold tileStep k0_pay3
  rw [shapeCast_self]
  refine Eq.trans (addf_apply _ _ _) ?_
  refine congrArg₂ (· + ·) ?_ ?_
  · refine Eq.trans (mulf_apply _ _ _) ?_
    exact congrArg₂ (· * ·) rfl (blockProduct_apply a b p q)
  · exact mulf_apply _ _ _

/-- At the exact instance narrowing the features changes nothing. -/
theorem narrowFeat_apply (h : Vec Ideal Cert.KernelIdeal.S4096x64 .f32) (y : Cert.KernelIdeal.S4096x64.Idx) :
    narrowFeat (F := Ideal) h y = h y := by
  unfold narrowFeat k0_pay1
  rw [shapeCast_self]
  rfl

/-- Nor does narrowing an adjacency block. -/
theorem narrowAdj_apply (a : Vec Ideal Cert.KernelIdeal.S512x4096 .f32) (y : Cert.KernelIdeal.S512x4096.Idx) :
    narrowAdj (F := Ideal) a y = a y := by
  unfold narrowAdj k0_pay2
  rw [shapeCast_self]
  rfl

/-- So the adjacency matrix narrowed block by block is, entry by entry, the matrix. -/
theorem adjNarrow_apply (A : Vec Ideal Cert.KernelIdeal.S4096x4096 .f32) (r k : Fin 4096) :
    adjNarrow (F := Ideal) A (ix2 r k) = A (ix2 r k) := by
  unfold adjNarrow stackRows
  refine Eq.trans (narrowAdj_apply _ _) ?_
  unfold rowBlock
  refine congrArg A ?_
  funext d; match d with
  | ⟨0, _⟩ => exact Fin.ext (by show 512 * (r.val / 512) + r.val % 512 = r.val; omega)
  | ⟨1, _⟩ => rfl

/-- One propagation step at entry (r, j): 0.9 · Σₖ A(r,k) · h(k,j) + 0.1 · X(r,j). -/
theorem propStep_apply (A : Vec Ideal Cert.KernelIdeal.S4096x4096 .f32) (X h : Vec Ideal Cert.KernelIdeal.S4096x64 .f32)
    (r : Fin 4096) (j : Fin 64) :
    propStep (F := Ideal) (adjNarrow A) X h (ix2 r j)
      = Ideal.ofBits .f32 0x3F666666#32 * (∑ k : Fin 4096, A (ix2 r k) * h (ix2 k j))
        + Ideal.ofBits .f32 0x3DCCCCCD#32 * X (ix2 r j) := by
  have hr : (⟨512 * (r.val / 512) + r.val % 512, by have := r.isLt; omega⟩ : Fin 4096) = r := Fin.ext (by show 512 * (r.val / 512) + r.val % 512 = r.val; omega)
  unfold propStep stackRows
  refine Eq.trans (tileStep_apply _ _ _ ⟨r.val % 512, Nat.mod_lt _ (by norm_num)⟩ j) ?_
  refine congrArg₂ (· + ·) (congrArg₂ (· * ·) rfl (Finset.sum_congr rfl fun k _ => ?_)) (congrArg₂ (· * ·) rfl ?_)
  · refine congrArg₂ (· * ·) ?_ (narrowFeat_apply h (ix2 k j))
    show adjNarrow (F := Ideal) A (ix2 (⟨512 * (r.val / 512) + r.val % 512, _⟩ : Fin 4096) k) = A (ix2 r k)
    rw [hr]
    exact adjNarrow_apply A r k
  · show X (ix2 (⟨512 * (r.val / 512) + r.val % 512, _⟩ : Fin 4096) j) = X (ix2 r j)
    rw [hr]

end Cert.ReferenceIdeal.RefValue

end
-- ==== Proof.RefI.lean ====
/-
  The reference's ten propagation steps and the kernel's specification, at the exact instance.
  The reference's run states its result as one closed term: ten nested copies of
  0.9 · (a · h) + 0.1 · x, each constant a broadcast scalar, the innermost h being x. Named as a
  function of h, one copy is one iteration; read at entry (r, j) at the exact instance it is
  0.9 · Σₖ a(r,k) · h(k,j) + 0.1 · x(r,j) — the product with no accumulator is the sum over the
  4096 columns — which is what one propagation step of the specification is there, with the same
  two constant words, the same factor on the left of each product and the same summand on the left
  of the sum. No law of arithmetic is used beyond 0 + s = s inside the two products' readings, so
  nothing here asks the entries to be finite. By induction n iterations are n steps, and ten of
  them are the reference's result.
-/
import proofs.«163700_g3178275799597_cont_8to1_b_565_9_alg».proof.Proof.SpecI
import proofs.«163700_g3178275799597_cont_8to1_b_565_9_alg».proof.Proof.StepIdealI
import proofs.«163700_g3178275799597_cont_8to1_b_565_9_alg».proof.Proof.Gen.ReferenceIdeal.Run
import proofs.«163700_g3178275799597_cont_8to1_b_565_9_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.ValueIdx

section Reference

open Cert.ReferenceIdeal Cert.ReferenceIdeal.Gen

variable {F : FTy → Type} [FloatOps F]

/-- One iteration of the reference, spelt as its run spells it: 0.9 · (a · h) + 0.1 · x, both constants broadcast. -/
def refStep (a : (⟨Cert.ReferenceIdeal.S4096x4096, .f32⟩ : BufTy).Contents (Elt F))
    (x h : (⟨Cert.ReferenceIdeal.S4096x64, .f32⟩ : BufTy).Contents (Elt F)) : (⟨Cert.ReferenceIdeal.S4096x64, .f32⟩ : BufTy).Contents (Elt F) :=
  addf (mulf (broadcastInDim S4096x64 ![] bcast_S_S4096x64 (constant S_ .f32 0x3F666666#32)) (Host.dotGeneral dot_S4096x4096_S4096x64_S4096x64_1_0_0_1_n_n none a h)) (mulf (broadcastInDim S4096x64 ![] bcast_S_S4096x64 (constant S_ .f32 0x3DCCCCCD#32)) x)

/-- The reference's features after n iterations from x. -/
def refIter (a : (⟨Cert.ReferenceIdeal.S4096x4096, .f32⟩ : BufTy).Contents (Elt F))
    (x : (⟨Cert.ReferenceIdeal.S4096x64, .f32⟩ : BufTy).Contents (Elt F)) : ℕ → (⟨Cert.ReferenceIdeal.S4096x64, .f32⟩ : BufTy).Contents (Elt F)
  | 0 => x
  | n + 1 => refStep a x (refIter a x n)

end Reference

section AtIdeal

open Cert.ReferenceIdeal Cert.ReferenceIdeal.Gen

/-- One iteration of the reference at entry (r, j), at the exact instance: 0.9 · Σₖ a(r,k) · h(k,j) + 0.1 · x(r,j). -/
theorem refStep_apply (a : (⟨Cert.ReferenceIdeal.S4096x4096, .f32⟩ : BufTy).Contents (Elt Ideal))
    (x h : (⟨Cert.ReferenceIdeal.S4096x64, .f32⟩ : BufTy).Contents (Elt Ideal)) (r : Fin 4096) (j : Fin 64) :
    refStep (F := Ideal) a x h (ix2 r j)
      = Ideal.ofBits .f32 0x3F666666#32 * (∑ k : Fin 4096, a (ix2 r k) * h (ix2 k j))
        + Ideal.ofBits .f32 0x3DCCCCCD#32 * x (ix2 r j) := by
  have el : ∀ k : Fin 4096, Read.lidx_main_v0 (ix2 r j) k = ix2 r k := fun k =>
    funext fun d => Fin.ext (by match d with | ⟨0, _⟩ => rfl | ⟨1, _⟩ => rfl)
  have er : ∀ k : Fin 4096, Read.ridx_main_v0 (ix2 r j) k = ix2 k j := fun k =>
    funext fun d => Fin.ext (by match d with | ⟨0, _⟩ => rfl | ⟨1, _⟩ => rfl)
  have hd : Read.val_main_v0 (F := Ideal) h a (ix2 r j) = ∑ k : Fin 4096, a (ix2 r k) * h (ix2 k j) := by
    refine (Read.val_main_v0_apply h a (ix2 r j)).trans ?_
    exact Finset.sum_congr rfl fun k _ => by rw [el k, er k]
  unfold refStep
  refine Eq.trans (addf_apply _ _ _) ?_
  refine congrArg₂ (· + ·) ?_ ?_
  · refine Eq.trans (mulf_apply _ _ _) ?_
    exact congrArg₂ (· * ·) rfl hd
  · exact mulf_apply _ _ _

end AtIdeal

section Equality

open Cert.ReferenceIdeal Cert.ReferenceIdeal.Gen

/-- At the exact instance one iteration of the reference is one propagation step of the kernel's specification. -/
theorem refStep_eq (a : FVec Ideal Cert.ReferenceIdeal.S4096x4096 .f32) (x h : FVec Ideal Cert.ReferenceIdeal.S4096x64 .f32) :
    refStep (F := Ideal) a x h = Cert.KernelIdeal.Gen.propStep (F := Ideal) (Cert.KernelIdeal.Gen.adjNarrow a) x h := by
  funext i
  obtain ⟨r, j, rfl⟩ : ∃ (r : Fin 4096) (j : Fin 64), i = ix2 r j := ⟨i 0, i 1, eq_ix2 i⟩
  exact (refStep_apply a x h r j).trans (propStep_apply a x h r j).symm

/-- So n iterations of the reference are n steps of the specification. -/
theorem refIter_eq (a : FVec Ideal Cert.ReferenceIdeal.S4096x4096 .f32) (x : FVec Ideal Cert.ReferenceIdeal.S4096x64 .f32) :
    ∀ n : ℕ, refIter (F := Ideal) a x n = Cert.KernelIdeal.Gen.feat (F := Ideal) x a n
  | 0 => rfl
  | n + 1 => by
    show refStep (F := Ideal) a x (refIter (F := Ideal) a x n)
      = Cert.KernelIdeal.Gen.propStep (F := Ideal) (Cert.KernelIdeal.Gen.adjNarrow a) x (Cert.KernelIdeal.Gen.feat (F := Ideal) x a n)
    rw [refIter_eq a x n, refStep_eq]

/-- The term the reference's run states for its result is ten iterations from x. -/
theorem ref_term_eq_iter {F : FTy → Type} [FloatOps F] (x : FVec F Cert.ReferenceIdeal.S4096x64 .f32) (a : FVec F Cert.ReferenceIdeal.S4096x4096 .f32) :
    (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a x)) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x) : (⟨Cert.ReferenceIdeal.S4096x64, .f32⟩ : BufTy).Contents (Elt F))
      = refIter (F := F) a x 10 := rfl

/-- The reference's result is the kernel's specification: ten propagation steps from x. -/
theorem ref_eq (x : FVec Ideal Cert.ReferenceIdeal.S4096x64 .f32) (a : FVec Ideal Cert.ReferenceIdeal.S4096x4096 .f32) :
    (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a (addf (mulf (broadcastInDim S4096x64 ![] bcast_S_S4096x64 (constant S_ .f32 0x3F666666#32)) (Host.dotGeneral dot_S4096x4096_S4096x64_S4096x64_1_0_0_1_n_n none a x)) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x)))) (mulf (broadcastInDim S4096x64 ![] bcast_S_S4096x64 (constant S_ .f32 0x3DCCCCCD#32)) x) : (⟨Cert.ReferenceIdeal.S4096x64, .f32⟩ : BufTy).Contents (Elt Ideal))
      = Cert.KernelIdeal.Gen.feat (F := Ideal) x a 10 :=
  (ref_term_eq_iter (F := Ideal) x a).trans (refIter_eq a x 10)

/-- The same through the generated stage name of the result. -/
theorem ref_val_eq (x : FVec Ideal Cert.ReferenceIdeal.S4096x64 .f32) (a : FVec Ideal Cert.ReferenceIdeal.S4096x4096 .f32) :
    Read.val_main_v59 (F := Ideal) x a = Cert.KernelIdeal.Gen.feat (F := Ideal) x a 10 :=
  (Read.val_main_v59_eq (F := Ideal) x a).symm.trans (ref_eq x a)

end Equality

end Cert.ReferenceIdeal.RefValue

end
-- ==== Proof.lean ====
/- The proof of `Cert.Claim` (proofs.«163700_g3178275799597_cont_8to1_b_565_9_alg».proof.Defs).
   Both programs compute ten steps of one recurrence on f32[4096, 64] features x and an f32[4096, 4096]
   matrix a: h ← 0.9 · (a · h) + 0.1 · x, from h = x. The kernel does it over a grid of eight points, one
   per 512-row block of a: every point narrows its block into a scratch copy of a and stores that block of
   the first step; the last point then runs the nine remaining steps from the scratch copies and leaves the
   tenth iterate in the result. The reference is the recurrence written out ten times.
   The three frames: each program runs to its end on every device and leaves its two argument arrays as
   launched. For the kernel this is one proof about the launch — at each grid point the body is handed the
   windows' buffers and the three scratch buffers, writes only scratch and, at the last point, the result's
   buffer, and hands them back — read at the bit-exact instance for the program as printed (Proof/FrameK.lean)
   and at the exact instance for its idealization (Proof/FrameI.lean); for the reference it is its run read
   back. `preserves`: the idealization rewrote no operation — it is the kernel's own text read at the exact
   instance — so the claim states nothing: `True`.
   `algebraic`: at the exact instance (floats the extended reals, every operation exact, a format change the
   identity) both programs end with the result array at `feat x a 10`, the tenth iterate of the recurrence
   (Proof/SpecI.lean). The kernel: after point t < 7 the scratch arrays agree with the narrowed matrix and
   with the first iterate on the rows below 512·(t+1); point 7 completes them, and each later step reads what
   the step before stored (Proof/FrameI.lean `run_value`). The reference: each of its ten nested iterations
   is one step of the specification, entry by entry 0.9 · Σₖ a(r,k) · h(k,j) + 0.1 · x(r,j) with the same two
   constant words and the same grouping on both sides, so no law of arithmetic beyond 0 + s = s is used and
   nothing asks the entries to be finite (Proof/StepIdealI.lean, Proof/RefI.lean `ref_eq`). From memories that
   agree on the arguments the two results are therefore the same function of the same arrays. -/
import proofs.«163700_g3178275799597_cont_8to1_b_565_9_alg».proof.Defs
import proofs.«163700_g3178275799597_cont_8to1_b_565_9_alg».proof.Proof.FrameK
import proofs.«163700_g3178275799597_cont_8to1_b_565_9_alg».proof.Proof.FrameI
import proofs.«163700_g3178275799597_cont_8to1_b_565_9_alg».proof.Proof.RefI
import proofs.«163700_g3178275799597_cont_8to1_b_565_9_alg».proof.Proof.Gen.Kernel
import proofs.«163700_g3178275799597_cont_8to1_b_565_9_alg».proof.Proof.Gen.KernelIdeal
import proofs.«163700_g3178275799597_cont_8to1_b_565_9_alg».proof.Proof.Gen.ReferenceIdeal
import proofs.«163700_g3178275799597_cont_8to1_b_565_9_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame (F := Bits) m ρ

/-- So does its idealization: the same launch proof at the exact instance. -/
theorem frame_kernelIdeal : Cert.frame_KernelIdeal := fun m ρ _ => Cert.KernelIdeal.Gen.frame (F := Ideal) m ρ

/-- And the reference: its run read back, the result's conjunct dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- At the exact instance, from memories that agree on the arguments, the kernel's result array ends at ten
    propagation steps from its features, and the reference's result, ten iterations of the same step from
    the same arrays, is that array. -/
theorem algebraic : Cert.algebraic_KernelIdeal_ReferenceIdeal := by
  intro m ρ m' ρ' _ hagree
  refine ⟨fun c => Cert.KernelIdeal.Gen.feat (F := Ideal) (Cert.KernelIdeal.Gen.X m c) (Cert.KernelIdeal.Gen.A m c) 10,
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_eq _ _

theorem claim : Cert.Claim := ⟨Cert.Kernel.Gen.facts, Cert.KernelIdeal.Gen.facts, Cert.ReferenceIdeal.Gen.facts, Cert.Pre_finite_inputs.Gen.facts,
  ⟨frame_kernel, frame_kernelIdeal, frame_referenceIdeal, preserves, algebraic⟩⟩

end Cert.Proof

end
